-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x2 .f32) (main_arg9 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128x2 .f32) (main_arg9 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1 : Shape := ⟨1, ![1]⟩
abbrev S1x128 : Shape := ⟨2, ![1, 128]⟩
abbrev S10000x128 : Shape := ⟨2, ![10000, 128]⟩
abbrev S50000x2 : Shape := ⟨2, ![50000, 2]⟩

abbrev nBuf : Space → Nat
  | .hbm => 47
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S128x128, .f32⟩
  | .hbm, ⟨29, _⟩ => ⟨S_, .i32⟩
  | .hbm, ⟨30, _⟩ => ⟨S1, .i32⟩
  | .hbm, ⟨31, _⟩ => ⟨S128x128, .f32⟩
  | .hbm, ⟨32, _⟩ => ⟨S_, .f32⟩
  | .hbm, ⟨33, _⟩ => ⟨S128, .f32⟩
  | .hbm, ⟨34, _⟩ => ⟨S_, .i32⟩
  | .hbm, ⟨35, _⟩ => ⟨S1, .i32⟩
  | .hbm, ⟨36, _⟩ => ⟨S128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S50000x128, .f32⟩
  | .hbm, ⟨46, _⟩ => ⟨S50000x2, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v25_2 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S10000x128 : S1x128.Broadcasts S10000x128
  reduces_S10000x128_S128 : S10000x128.Reduces [0] S128
  shapeCasts_S128x128_S128x128 : S128x128.ShapeCasts S128x128
  slices_S50000x128_S50000x2_0_0 : S50000x128.Slices ![0, 0] S50000x2
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S128x128_S1_S128x2_01_n_1_0_wf : ScatterDims.WF S128x128 S1 S128x2 [0, 1] [] [1] 0
  scatter_S128_S1_S2_0_n_0_0_wf : ScatterDims.WF S128 S1 S2 [0] [] [0] 0
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S50000x128.size a
  hwx0_4 : ∀ i : grid0.Coords, EltTy.bits .f32 = 32 ∨ (Rect.block (s := S50000x128) S10000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x128.size a ≤ S50000x128.size a
  hwx1_9 : ∀ i : grid1.Coords, EltTy.bits .f32 = 32 ∨ (Rect.block (s := S50000x128) S10000x128.size (cc1_transform_9 i) (hinb1_9 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S128x128_S1_S128x2_01_n_1_0 : ScatterDims S128x128 S1 S128x2 where
  updateWindowDims := [0, 1]
  insertedWindowDims := []
  scatterDimsToOperandDims := [1]
  indexVectorDim := 0
  wf := scatter_S128x128_S1_S128x2_01_n_1_0_wf
def scatter_S128_S1_S2_0_n_0_0 : ScatterDims S128 S1 S2 where
  updateWindowDims := [0]
  insertedWindowDims := []
  scatterDimsToOperandDims := [0]
  indexVectorDim := 0
  wf := scatter_S128_S1_S2_0_n_0_0_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25_0) S10000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25_1) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25_2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S10000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000x2 : Shape := ⟨2, ![50000, 2]⟩
abbrev S1x2 : Shape := ⟨2, ![1, 2]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S50000x2, .f32⟩
  | .hbm, ⟨84, _⟩ => ⟨S1x2, .f32⟩
  | .hbm, ⟨85, _⟩ => ⟨S50000x2, .f32⟩
  | .hbm, ⟨86, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_cst_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_cst_1 : Ref sig .tc := ⟨.hbm, 51, rfl⟩
abbrev main_call1_v8 : Ref sig .tc := ⟨.hbm, 52, rfl⟩
abbrev main_call1_cst_2 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_cst_3 : Ref sig .tc := ⟨.hbm, 57, rfl⟩
abbrev main_call1_v12 : Ref sig .tc := ⟨.hbm, 58, rfl⟩
abbrev main_call1_cst_4 : Ref sig .tc := ⟨.hbm, 59, rfl⟩
abbrev main_call1_call0_v0 : Ref sig .tc := ⟨.hbm, 60, rfl⟩
abbrev main_call1_call0_v1 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_4 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KRun.lean ====
/-
  The kernel program's run with its result named.

  The program is four stretches: host operations, the first kernel over its five blocks of rows, the second kernel over
  the same five blocks, and one closing host slice. Every weakly fair execution terminates, and at the end each buffer
  holds what the four stretches leave in it, folded from the launch memory; in particular the result buffer holds the
  closing slice of the second kernel's output array, and the argument arrays are as launched.
-/
import proofs.«135048_j90443421319566_1_alg».proof.Proof.Gen.KernelIdeal.Frame

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments as
    launched. -/
theorem run_named : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.KValue

end
-- ==== Proof.Spec.lean ====
/-
  The graph-isomorphism classifier, as mathematics on the extended reals.

  A node's features plus the sum of its in-neighbours' features, `P r k`, pass through a dense layer and a rectifier:
  `hid P W b r j = max (Σ_k P r k · W k j + b j) 0`. The hidden array is normalised per column by its mean and variance
  over the 50000 nodes. Two spellings of these statistics occur. One takes the mean as the column sum times 1/50000 and the
  variance as the mean of the squares less the square of the mean (`meanK`, `varK`); the other divides the column sum by
  50000 and averages the squared deviations from that mean (`meanR`, `varR`). On real entries they are the same numbers
  (`stats_eq`): Σ (h − μ)² = Σ h² − 2 μ Σ h + N μ², and Σ h = N μ. The normalised array then passes through two more
  dense layers (`lin`), giving `outF`.
-/
import Idealize.ShloMosaic.PureOps.Ideal

noncomputable section

open scoped BigOperators

namespace Cert.GinSpec

open Idealize.ShloMosaic

/-- A dense layer: row r of `A` against the weights `W`, plus the bias. -/
def lin {ι : Type} {n : Nat} (A : ι → Fin 128 → EReal) (W : Fin 128 → Fin n → EReal) (b : Fin n → EReal)
    (r : ι) (j : Fin n) : EReal :=
  ∑ k : Fin 128, A r k * W k j + b j

/-- The hidden layer: a dense layer followed by the rectifier. -/
def hid {ι : Type} (P : ι → Fin 128 → EReal) (W : Fin 128 → Fin 128 → EReal) (b : Fin 128 → EReal)
    (r : ι) (j : Fin 128) : EReal :=
  max (lin P W b r j) 0

/-- The sum of column j. -/
def colSum (H : Fin 50000 → Fin 128 → EReal) (j : Fin 128) : EReal := ∑ r : Fin 50000, H r j

/-- The sum of the squares of column j. -/
def colSq (H : Fin 50000 → Fin 128 → EReal) (j : Fin 128) : EReal := ∑ r : Fin 50000, H r j * H r j

/-- The column mean as the sum times 1/50000. -/
def meanK (H : Fin 50000 → Fin 128 → EReal) (j : Fin 128) : EReal := colSum H j * ((1 / 50000 : ℝ) : EReal)

/-- The column variance as the mean of the squares less the square of the mean. -/
def varK (H : Fin 50000 → Fin 128 → EReal) (j : Fin 128) : EReal :=
  colSq H j * ((1 / 50000 : ℝ) : EReal) - meanK H j * meanK H j

/-- The column mean as the sum divided by 50000. -/
def meanR (H : Fin 50000 → Fin 128 → EReal) (j : Fin 128) : EReal := Ideal.div (colSum H j) ((50000 : ℝ) : EReal)

/-- The column variance as the average squared deviation from the mean. -/
def varR (H : Fin 50000 → Fin 128 → EReal) (j : Fin 128) : EReal :=
  Ideal.div (∑ r : Fin 50000, (H r j - meanR H j) * (H r j - meanR H j)) ((50000 : ℝ) : EReal)

/-- The normalisation of column k by a mean and a variance, then the scale and the shift. -/
def bn {ι : Type} (H : ι → Fin 128 → EReal) (mean var : Fin 128 → EReal) (eps : EReal) (γ β : Fin 128 → EReal)
    (r : ι) (k : Fin 128) : EReal :=
  (H r k - mean k) * Ideal.rsqrt (var k + eps) * γ k + β k

/-- The classifier's result from the hidden array and a choice of statistics. -/
def outF {ι : Type} {n : Nat} (H : ι → Fin 128 → EReal) (mean var : Fin 128 → EReal) (eps : EReal) (γ β : Fin 128 → EReal)
    (W2 : Fin 128 → Fin 128 → EReal) (b2 : Fin 128 → EReal) (Wl : Fin 128 → Fin n → EReal) (bl : Fin n → EReal)
    (r : ι) (j : Fin n) : EReal :=
  lin (lin (bn H mean var eps γ β) W2 b2) Wl bl r j

end Cert.GinSpec

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.LibPlainFields.lean ====
/-
  A kernel's matrix product whose dimension record is ANY record with the plain lists — contract the left
  operand's last axis with the right operand's first, no batch axis — accumulated into the zero block: its entry
  (a, b) is the sum over c of A(a, c) · B(c, b) on the extended reals.  A program's printed record carries its own
  proof of well-formedness; only the six lists matter, and they are compared here, not the records.
  Generic in the three extents, the operand formats and the precision key.
-/
import proofs.«135048_j90443421319566_1_alg».proof.Proof.LibPlainMatmul

noncomputable section

namespace Cert.LibPlainFields

open Idealize.ShloMosaic Idealize.ShloMosaic.ValueIdx

theorem matmul_plainFields_zero_apply {m k n : Nat} {φ₁ φ₂ : FTy} (D : DotDims ⟨2, ![m, k]⟩ ⟨2, ![k, n]⟩ ⟨2, ![m, n]⟩)
    (h1 : D.lhsContracting = [1]) (h2 : D.rhsContracting = [0]) (h3 : D.lhsNonContracting = [0]) (h4 : D.rhsNonContracting = [1])
    (h5 : D.lhsBatch = []) (h6 : D.rhsBatch = []) (prec : Option ContractPrecision)
    (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  obtain ⟨lc, rc, ln, rn, lb, rb, wf⟩ := D
  dsimp only at h1 h2 h3 h4 h5 h6
  subst h1 h2 h3 h4 h5 h6
  exact Cert.LibPlainMatmul.matmul_plain_zero_apply prec A B a b

end Cert.LibPlainFields

end
-- ==== Proof.LibRowForms.lean ====
/-
  Three reads at an index beside the library's layout lemmas, at any extents.

  A sum DOWN the columns of an `[a, b]` array (a reduction along its first axis) at column `c` runs over `k ↦ (k, c)`.
  A unit-stride slice of a matrix with an offset on BOTH axes (a diagonal block), or of a vector, reads its operand at
  the index moved by the offsets. A matrix `[a, b]` flattened to a row `[1, n]` reads, at position `k = p·b + q`, the
  matrix at `(p, q)`. The indices are written by coordinates, so each lemma applies to a printed operation by
  unification.
-/
import Idealize.ShloMosaic.Lib.ValueLayout
import Idealize.ShloMosaic.PureOps.Ideal.Laws

namespace Idealize.ShloMosaic.ValueIdx

open Idealize.ShloMosaic

variable {α : Type}

/-- Over a reduction of `[a, b]` along its FIRST axis, the source index above column `c` with `k` on the dropped axis is `(k, c)`. -/
theorem lift_col {a b : ℕ} (h : (⟨2, ![a, b]⟩ : Shape).Reduces [(0 : Fin 2)] ⟨1, ![b]⟩) (c : Fin b) (k : Fin a) :
    h.lift (ix1 c) k = ix2 k c :=
  funext fun d => Fin.ext (by match d with | ⟨0, _⟩ => rfl | ⟨1, _⟩ => rfl)

variable {φ : FTy}

/-- A sum down the columns of an `[a, b]` array at column `c`, at the exact values: the sum over the column. -/
theorem multiReduction_add_col {a b : ℕ} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (c : Fin b) :
    multiReduction .add [(0 : Fin 2)] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_col h c k)

/-- A unit-stride slice of a matrix reads the matrix at the index moved by the offsets. -/
theorem slice2_apply {A B a b : ℕ} (o0 o1 : ℕ) (x : (⟨2, ![A, B]⟩ : Shape).Idx → α)
    (h : (⟨2, ![A, B]⟩ : Shape).Slices ![o0, o1] ⟨2, ![a, b]⟩) (p : Fin a) (q : Fin b) (P : Fin A) (Q : Fin B)
    (hP : P.val = o0 + p.val) (hQ : Q.val = o1 + q.val) :
    extractStridedSlice ⟨2, ![a, b]⟩ ![o0, o1] x h (ix2 p q) = x (ix2 P Q) :=
  extractStridedSlice_apply ![o0, o1] x h (ix2 p q) (ix2 P Q) fun ax => by
    match ax with
    | ⟨0, _⟩ => exact hP
    | ⟨1, _⟩ => exact hQ

/-- A unit-stride slice of a vector reads the vector at the index moved by the offset. -/
theorem slice1_apply {A a : ℕ} (o : ℕ) (x : (⟨1, ![A]⟩ : Shape).Idx → α)
    (h : (⟨1, ![A]⟩ : Shape).Slices ![o] ⟨1, ![a]⟩) (p : Fin a) (P : Fin A) (hP : P.val = o + p.val) :
    extractStridedSlice ⟨1, ![a]⟩ ![o] x h (ix1 p) = x (ix1 P) :=
  extractStridedSlice_apply ![o] x h (ix1 p) (ix1 P) fun ax => by
    match ax with
    | ⟨0, _⟩ => exact hP

/-- A matrix `[a, b]` flattened to the row `[1, a·b]` reads, at `(u, k)`, the matrix at `(k / b, k % b)`. -/
theorem shapeCast_ab_1n_apply {a b n : ℕ} (v : (⟨2, ![a, b]⟩ : Shape).Idx → α) (h : (⟨2, ![a, b]⟩ : Shape).ShapeCasts ⟨2, ![1, n]⟩)
    (u : Fin 1) (k : Fin n) (p : Fin a) (q : Fin b) (hk : k.val = p.val * b + q.val) :
    shapeCast ⟨2, ![1, n]⟩ v h (ix2 u k) = v (ix2 p q) :=
  shapeCast_apply v h _ _ (by
    have hu : u.val = 0 := by omega
    rw [Shape.rowMajor_val_two, Shape.rowMajor_val_two]
    show p.val * b + q.val = u.val * n + k.val
    rw [hu, hk, Nat.zero_mul, Nat.zero_add])

end Idealize.ShloMosaic.ValueIdx
-- ==== Proof.KBlocks.lean ====
/-
  The two kernel bodies as functions of their blocks, read at an entry, on the extended reals.

  The first body, on a block of rows `x0` of the features and `x1` of the neighbour sums, computes the rectified dense
  layer of `x0 + x1`, and adds to the two running rows the block's column sums of that result and of its square.
  The second body turns the finished column sum `s` and column sum of squares `q` into a mean and a variance, normalises
  a block of rows of the hidden array with them, and applies two more dense layers.
-/
import proofs.«135048_j90443421319566_1_alg».proof.Proof.Gen.KernelIdeal.Skeleton
import proofs.«135048_j90443421319566_1_alg».proof.Proof.Spec
import proofs.«135048_j90443421319566_1_alg».proof.Proof.LibPlainFields
import proofs.«135048_j90443421319566_1_alg».proof.Proof.LibRowForms
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.KBlocks

open Idealize.ShloMosaic Idealize.ShloMosaic.ValueIdx Cert.KernelIdeal Cert.KernelIdeal.Gen Cert.GinSpec

/-- The named reciprocal is the rational 1/50000. -/
theorem inv_n : Named.named (F := Ideal) κ "inv_50000" (φ := .f32) 0x37A7C5AC#32 = ((1 / 50000 : ℝ) : EReal) :=
  IdealRules.named_const.ideal_named_scalar _ _ _ _ rfl

/-- The hidden block at (a, j): the rectified dense layer of row a of `x0 + x1`. -/
theorem pay3_apply (x0 x1 : Vec Ideal S10000x128 .f32) (w : Vec Ideal S128x128 .f32) (b : Vec Ideal S1x128 .f32)
    (a : Fin 10000) (j : Fin 128) :
    k0_pay3 (F := Ideal) x0 x1 w b (ix2 a j)
      = hid (fun (a : Fin 10000) k => x0 (ix2 a k) + x1 (ix2 a k)) (fun k j => w (ix2 k j)) (fun j => b (ix2 0 j)) a j := by
  unfold k0_pay3 hid lin
  dsimp only
  rw [maximumf_apply, addf_apply, broadcast_apply, broadcastTo_1b_ab_apply, shapeCast_self,
    Cert.LibPlainFields.matmul_plainFields_zero_apply _ rfl rfl rfl rfl rfl rfl]
  simp only [truncf_apply, addf_apply, shapeCast_self, Ideal.ofBits_def, Ideal.ofBits_zero_f32]

/-- The zero row the first point stores. -/
theorem pay1_apply (j : Fin 128) : k0_pay1 (F := Ideal) (ix2 0 j) = 0 := by
  unfold k0_pay1
  rw [broadcast_apply]
  simp only [Ideal.ofBits_def, Ideal.ofBits_zero_f32]

theorem pay2_apply (j : Fin 128) : k0_pay2 (F := Ideal) (ix2 0 j) = 0 := by
  unfold k0_pay2
  rw [broadcast_apply]
  simp only [Ideal.ofBits_def, Ideal.ofBits_zero_f32]

/-- The running column sum after a block: what it held plus the block's column sum of the hidden block. -/
theorem pay4_apply (x0 x1 : Vec Ideal S10000x128 .f32) (w : Vec Ideal S128x128 .f32) (b s : Vec Ideal S1x128 .f32)
    (j : Fin 128) :
    k0_pay4 (F := Ideal) x0 x1 w b s (ix2 0 j)
      = s (ix2 0 j) + ∑ a : Fin 10000, k0_pay3 (F := Ideal) x0 x1 w b (ix2 a j) := by
  unfold k0_pay4
  dsimp only
  rw [addf_apply, shapeCast_self, shapeCast_a_1a_apply]
  exact congrArg (s (ix2 0 j) + ·) (multiReduction_add_col _ _ _ _ _ j)

/-- The running column sum of squares after a block. -/
theorem pay5_apply (x0 x1 : Vec Ideal S10000x128 .f32) (w : Vec Ideal S128x128 .f32) (b s : Vec Ideal S1x128 .f32)
    (j : Fin 128) :
    k0_pay5 (F := Ideal) x0 x1 w b s (ix2 0 j)
      = s (ix2 0 j) + ∑ a : Fin 10000, k0_pay3 (F := Ideal) x0 x1 w b (ix2 a j) * k0_pay3 (F := Ideal) x0 x1 w b (ix2 a j) := by
  unfold k0_pay5
  dsimp only
  rw [addf_apply, shapeCast_self, shapeCast_a_1a_apply]
  exact congrArg (s (ix2 0 j) + ·) ((multiReduction_add_col _ _ _ _ _ j).trans (Finset.sum_congr rfl fun a _ => mulf_apply _ _ _))

/-- The reciprocal square root, entry by entry. -/
theorem rsqrt_apply {s : Shape} {φ : FTy} (v : FVec Ideal s φ) (i : s.Idx) : rsqrt v i = Ideal.rsqrt (v i) := rfl

/-- The second body's block at (a, j): the column statistics from the finished sums `s` and `q`, the normalisation
    of row a of the hidden block, and the two dense layers. -/
theorem out_block_apply (h : Vec Ideal S10000x128 .f32) (s q g be : Vec Ideal S1x128 .f32) (W2 : Vec Ideal S128x128 .f32)
    (b2 : Vec Ideal S1x128 .f32) (Wl : Vec Ideal S128x128 .f32) (bl : Vec Ideal S1x128 .f32) (a : Fin 10000) (j : Fin 128) :
    k1_pay1 (F := Ideal) (k1_pay2 s q h g be W2 b2) (k1_pay3 Wl) bl (ix2 a j)
      = outF (fun (a : Fin 10000) k => h (ix2 a k))
          (fun k => s (ix2 0 k) * ((1 / 50000 : ℝ) : EReal))
          (fun k => q (ix2 0 k) * ((1 / 50000 : ℝ) : EReal)
            - s (ix2 0 k) * ((1 / 50000 : ℝ) : EReal) * (s (ix2 0 k) * ((1 / 50000 : ℝ) : EReal)))
          (Ideal.ofBits .f32 0x3727C5AC#32) (fun k => g (ix2 0 k)) (fun k => be (ix2 0 k))
          (fun k k2 => W2 (ix2 k k2)) (fun k => b2 (ix2 0 k)) (fun k j => Wl (ix2 k j)) (fun j => bl (ix2 0 j)) a j := by
  unfold k1_pay1 k1_pay2 k1_pay3 outF lin bn
  dsimp only
  simp only [addf_apply, subf_apply, mulf_apply, truncf_apply, rsqrt_apply, broadcast_apply, broadcastTo_1b_ab_apply,
    shapeCast_self, inv_n, Ideal.ofBits_def,
    Cert.LibPlainFields.matmul_plainFields_zero_apply dot_S10000x128_S128x128_S10000x128_1_0_0_1_n_n rfl rfl rfl rfl rfl rfl none]

/-- The classifier's result at a row depends on that row of the hidden array only. -/
theorem outF_congr {ι ι' : Type} {n : Nat} (H : ι → Fin 128 → EReal) (H' : ι' → Fin 128 → EReal) (mean var : Fin 128 → EReal)
    (eps : EReal) (γ β : Fin 128 → EReal) (W2 : Fin 128 → Fin 128 → EReal) (b2 : Fin 128 → EReal)
    (Wl : Fin 128 → Fin n → EReal) (bl : Fin n → EReal) (r : ι) (r' : ι') (h : ∀ k, H r k = H' r' k) (j : Fin n) :
    outF H mean var eps γ β W2 b2 Wl bl r j = outF H' mean var eps γ β W2 b2 Wl bl r' j := by
  unfold outF lin bn
  simp only [h]

end Cert.KernelIdeal.KBlocks

end
-- ==== Proof.LibBlockSums.lean ====
/-
  Two re-indexing facts for sums cut into consecutive blocks of equal length, in any additive commutative monoid.

  A sum over the first a * b natural numbers is the sum, over the a blocks, of the sums over the b positions inside a
  block, the position k of block c being the number c * b + k. The same for a sum over Fin n with a * b = n, where
  the summand at block k, position r is read at the index k * b + r (which is below n, so the guard on the index is
  always satisfied).
-/
import Mathlib.Algebra.BigOperators.Fin
import Mathlib.Algebra.BigOperators.Intervals

open scoped BigOperators

namespace Cert.LibBlockSums

/-- A sum over the first a * b natural numbers, cut into a consecutive blocks of length b: the block c holds the numbers
    c * b + k for k below b. By induction on the number of blocks, splitting the last block off the range. -/
theorem sum_range_mul {M : Type*} [AddCommMonoid M] (a b : ℕ) (g : ℕ → M) :
    ∑ c ∈ Finset.range a, ∑ k ∈ Finset.range b, g (c * b + k) = ∑ t ∈ Finset.range (a * b), g t := by
  induction a with
  | zero => simp
  | succ a ih => rw [Finset.sum_range_succ, ih, add_one_mul, Finset.sum_range_add]

/-- A sum over Fin n with a * b = n, cut into a consecutive blocks of length b: block k, position r reads the index
    k * b + r. The guard k * b + r < n holds for every k below a, so the guarded summand is the function's value; the
    guarded function on the natural numbers (the value below n, zero from n on) turns both sides into sums over ranges,
    where the cut is `sum_range_mul`. -/
theorem sum_blocks {M : Type*} [AddCommMonoid M] (a b n : ℕ) (hn : a * b = n) (f : Fin n → M) :
    ∑ k ∈ Finset.range a, ∑ r : Fin b, (if h : k * b + r.val < n then f ⟨k * b + r.val, h⟩ else 0) = ∑ i : Fin n, f i := by
  have hg : ∀ k : ℕ, (∑ r : Fin b, (if h : k * b + r.val < n then f ⟨k * b + r.val, h⟩ else 0))
      = ∑ r ∈ Finset.range b, (fun t : ℕ => if h : t < n then f ⟨t, h⟩ else 0) (k * b + r) := fun k =>
    (Finset.sum_range fun r : ℕ => (fun t : ℕ => if h : t < n then f ⟨t, h⟩ else 0) (k * b + r)).symm
  rw [Finset.sum_congr rfl fun k _ => hg k, sum_range_mul a b fun t : ℕ => if h : t < n then f ⟨t, h⟩ else 0, hn,
    Finset.sum_range]
  exact Finset.sum_congr rfl fun i _ => dif_pos i.2

end Cert.LibBlockSums
-- ==== Proof.KReg0.lean ====
/-
  The first kernel's three output arrays as functions of the arrays it finds.

  The grid has five points; point t works on rows 10000·t … 10000·t + 9999 of the features and of the neighbour sums
  and writes the same rows of the hidden array. The two running rows are zeroed at the first point, every point adds
  its block's column sums of the hidden block and of its square, and they are written back once, after the last
  point: they end at the sums over all 50000 rows.
-/
import proofs.«135048_j90443421319566_1_alg».proof.Proof.Gen.KernelIdeal.Frame
import proofs.«135048_j90443421319566_1_alg».proof.Proof.KBlocks
import proofs.«135048_j90443421319566_1_alg».proof.Proof.LibBlockSums

noncomputable section

open scoped BigOperators

namespace Cert.KernelIdeal.KReg0

open Idealize.ShloMosaic Idealize.ShloMosaic.TcCoe Idealize.ShloMosaic.ValueIdx Idealize.SL.Sem Idealize.ShloMosaic.Tactic
open Idealize.ShloMosaic.Pipeline (Dat)
open Cert.KernelIdeal Cert.KernelIdeal.Gen Cert.GinSpec

theorem hz : (![0, 0] : Fin 2 → Nat) = fun _ => 0 := funext fun a => by fin_cases a <;> rfl

section Pieces
variable {F : FTy → Type} [FloatOps F] [Named F]

/-- CASE B, the hidden block: the one covering store's payload, whose loads read the whole buffers. -/
theorem out_B_4 (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S10000x128 .f32) (x2 : Vec F S128x128 .f32) (x3 : Vec F S1x128 .f32) (xo5 xo6 : Vec F S1x128 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

/-- CASE B, the running column sum: what the buffer held plus the block's column sum. -/
theorem out_B_5 (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S10000x128 .f32) (x2 : Vec F S128x128 .f32) (x3 : Vec F S1x128 .f32) (xo5 xo6 : Vec F S1x128 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

/-- CASE B, the running column sum of squares. -/
theorem out_B_6 (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S10000x128 .f32) (x2 : Vec F S128x128 .f32) (x3 : Vec F S1x128 .f32) (xo5 xo6 : Vec F S1x128 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

/-- CASE A (the first point), the hidden block. -/
theorem out_A_4 (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S10000x128 .f32) (x2 : Vec F S128x128 .f32) (x3 : Vec F S1x128 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

/-- CASE A, the column sum: the zero row is stored, read back, and the block's column sum added. -/
theorem out_A_5 (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S10000x128 .f32) (x2 : Vec F S128x128 .f32) (x3 : Vec F S1x128 .f32) :
    out0_A_5 c i a1 h1 a2 h2 a3 h3 a4 h4 a5 h5 a6 h6 a7 h7 hc x0 x1 x2 x3 = k0_pay4 x0 x1 x2 x3 k0_pay1 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

/-- CASE A, the column sum of squares. -/
theorem out_A_6 (c : Dev nD) (i : grid0.Coords) (a1 : Memref sig .tc .vmem S10000x128 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S10000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S10000x128 .f32) (x2 : Vec F S128x128 .f32) (x3 : Vec F S1x128 .f32) :
    out0_A_6 c i a1 h1 a2 h2 a3 h3 a4 h4 a5 h5 a6 h6 a7 h7 hc x0 x1 x2 x3 = k0_pay5 x0 x1 x2 x3 k0_pay2 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread,
    View.ld_unit_zero (S := S10000x128) hz, View.ld_unit_zero (S := S128x128) hz, View.ld_unit_zero (S := S1x128) hz]

end Pieces

section Arrays

variable (V : (c : Dev nD) → (b : Ref sig .tc) → Buf (Elt Ideal) ((c : Thread nD τ).loc b))

/-- Row a of block n, as a row of the whole array. -/
def rowOf (n : Nat) (hn : n < 5) (a : Fin 10000) : Fin 50000 := ⟨n * 10000 + a.val, by have := a.isLt; omega⟩

theorem lt5 (t : Fin cfg0.N) : t.val < 5 := by have := t.isLt; have h : cfg0.N = 5 := N_0; omega

/-- The printed index maps over the grid: the row-blocked windows sit at block (t, 0), the others at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The features' block at point t is their rows 10000·t + a. -/
theorem blk_0 (c : Dev nD) (t : Fin cfg0.N) (y : S10000x128.Idx) :
    (iblk0 V c 0 t : Vec Ideal S10000x128 .f32) y = V c main_arg0 (ix2 (rowOf t.val (lt5 t) (y 0)) (y 1)) := by
  obtain ⟨⟨e0, e1⟩, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * (y 0).val = t.val * 10000 + (y 0).val; rw [e0]; omega
  | ⟨1, _⟩ => show win0_0.index t (1 : Fin 2) * 128 + 1 * (y 1).val = (y 1).val; rw [e1]; omega

/-- The neighbour sums' block at point t is their rows 10000·t + a. -/
theorem blk_1 (c : Dev nD) (t : Fin cfg0.N) (y : S10000x128.Idx) :
    (iblk0 V c 1 t : Vec Ideal S10000x128 .f32) y = V c main_v13 (ix2 (rowOf t.val (lt5 t) (y 0)) (y 1)) := by
  obtain ⟨-, ⟨e0, e1⟩, -⟩ := idx_facts t
  unfold iblk0
  rw [View.read_apply]
  show V c main_v13 _ = V c main_v13 _
  refine congrArg (V c main_v13) (funext fun a => Fin.ext ?_)
  match a with
  | ⟨0, _⟩ => show win0_1.index t (0 : Fin 2) * 10000 + 1 * (y 0).val = t.val * 10000 + (y 0).val; rw [e0]; omega
  | ⟨1, _⟩ => show win0_1.index t (1 : Fin 2) * 128 + 1 * (y 1).val = (y 1).val; rw [e1]; omega

/-- The weights are read whole at every point. -/
theorem blk_2 (c : Dev nD) (t : Fin cfg0.N) (y : S128x128.Idx) :
    (iblk0 V c 2 t : Vec Ideal S128x128 .f32) y = V c main_arg2 y := by
  obtain ⟨-, -, ⟨e0, e1⟩, -⟩ := idx_facts t
  unfold iblk0
  rw [View.read_apply]
  show V c main_arg2 _ = V c main_arg2 _
  refine congrArg (V c main_arg2) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias row is read whole at every point. -/
theorem blk_3 (c : Dev nD) (t : Fin cfg0.N) (y : S1x128.Idx) :
    (iblk0 V c 3 t : Vec Ideal S1x128 .f32) y = V c main_v20 y := by
  obtain ⟨-, -, -, ⟨e0, e1⟩, -⟩ := idx_facts t
  unfold iblk0
  rw [View.read_apply]
  show V c main_v20 _ = V c main_v20 _
  refine congrArg (V c main_v20) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The hidden array: the rectified dense layer of every row of `x + agg`. -/
def hidArr (x agg : S50000x128.Idx → EReal) (w : S128x128.Idx → EReal) (b : S1x128.Idx → EReal) : S50000x128.Idx → EReal :=
  fun i => hid (fun (r : Fin 50000) k => x (ix2 r k) + agg (ix2 r k)) (fun k j => w (ix2 k j)) (fun j => b (ix2 0 j))
    (i 0 : Fin 50000) (i 1 : Fin 128)

/-- The hidden array of the arrays the region finds. -/
abbrev hidV (c : Dev nD) : S50000x128.Idx → EReal := hidArr (V c main_arg0) (V c main_v13) (V c main_arg2) (V c main_v20)

/-- The hidden block point t computes. -/
abbrev hidBlk (c : Dev nD) (t : Fin cfg0.N) : Vec Ideal S10000x128 .f32 :=
  k0_pay3 (F := Ideal) (iblk0 V c 0 t) (iblk0 V c 1 t) (iblk0 V c 2 t) (iblk0 V c 3 t)

/-- The hidden block at point t is rows 10000·t + a of the hidden array. -/
theorem hidBlk_apply (c : Dev nD) (t : Fin cfg0.N) (a : Fin 10000) (j : Fin 128) :
    hidBlk V c t (ix2 a j) = hidV V c (ix2 (rowOf t.val (lt5 t) a) j) := by
  refine (Cert.KernelIdeal.KBlocks.pay3_apply (iblk0 V c 0 t) (iblk0 V c 1 t) (iblk0 V c 2 t) (iblk0 V c 3 t) a j).trans ?_
  unfold hidV hidArr hid lin
  simp only [blk_0 V c t, blk_1 V c t, blk_2 V c t, blk_3 V c t]

/-- After every point the hidden array's staging buffer holds that point's hidden block. -/
theorem outs_4 (c : Dev nD) (t : Fin cfg0.N) : (outsAt0 V c t.val t.isLt).1 = hidBlk V c t := by
  by_cases h0 : t.val % 5 = 0
  · rw [outsAt0_A V c t h0, out_A_4]
  · rw [outsAt0_B V c t h0, out_B_4]

/-- The column sum of block k's hidden block (zero past the grid). -/
def blkSum (c : Dev nD) (j : Fin 128) (k : ℕ) : EReal :=
  if h : k < cfg0.N then ∑ a : Fin 10000, hidBlk V c ⟨k, h⟩ (ix2 a j) else 0

/-- The column sum of squares of block k's hidden block (zero past the grid). -/
def blkSq (c : Dev nD) (j : Fin 128) (k : ℕ) : EReal :=
  if h : k < cfg0.N then ∑ a : Fin 10000, hidBlk V c ⟨k, h⟩ (ix2 a j) * hidBlk V c ⟨k, h⟩ (ix2 a j) else 0

/-- After point n the running column sum holds the sum of the blocks' column sums up to n. -/
theorem outs_5 (c : Dev nD) (j : Fin 128) : ∀ (n : ℕ) (h : n < cfg0.N),
    (outsAt0 V c n h).2.1 (ix2 0 j) = ∑ k ∈ Finset.range (n + 1), blkSum V c j k
  | 0, h => by
    rw [outsAt0_A V c ⟨0, h⟩ rfl, out_A_5]
    refine (Cert.KernelIdeal.KBlocks.pay4_apply _ _ _ _ _ j).trans ?_
    rw [Cert.KernelIdeal.KBlocks.pay1_apply, zero_add, Finset.sum_range_one, blkSum, dif_pos h]
  | n + 1, h => by
    have hN : cfg0.N = 5 := N_0
    have hB : ¬(⟨n + 1, h⟩ : Fin cfg0.N).val % 5 = 0 := by dsimp only; omega
    rw [outsAt0_B V c ⟨n + 1, h⟩ hB, out_B_5]
    refine (Cert.KernelIdeal.KBlocks.pay4_apply _ _ _ _ _ j).trans ?_
    rw [Finset.sum_range_succ _ (n + 1), blkSum, dif_pos h]
    exact congrArg (fun z => z + ∑ a : Fin 10000, hidBlk V c ⟨n + 1, h⟩ (ix2 a j)) (outs_5 c j n (Nat.lt_of_succ_lt h))

/-- After point n the running column sum of squares holds the sum of the blocks' up to n. -/
theorem outs_6 (c : Dev nD) (j : Fin 128) : ∀ (n : ℕ) (h : n < cfg0.N),
    (outsAt0 V c n h).2.2 (ix2 0 j) = ∑ k ∈ Finset.range (n + 1), blkSq V c j k
  | 0, h => by
    rw [outsAt0_A V c ⟨0, h⟩ rfl, out_A_6]
    refine (Cert.KernelIdeal.KBlocks.pay5_apply _ _ _ _ _ j).trans ?_
    rw [Cert.KernelIdeal.KBlocks.pay2_apply, zero_add, Finset.sum_range_one, blkSq, dif_pos h]
  | n + 1, h => by
    have hN : cfg0.N = 5 := N_0
    have hB : ¬(⟨n + 1, h⟩ : Fin cfg0.N).val % 5 = 0 := by dsimp only; omega
    rw [outsAt0_B V c ⟨n + 1, h⟩ hB, out_B_6]
    refine (Cert.KernelIdeal.KBlocks.pay5_apply _ _ _ _ _ j).trans ?_
    rw [Finset.sum_range_succ _ (n + 1), blkSq, dif_pos h]
    exact congrArg (fun z => z + ∑ a : Fin 10000, hidBlk V c ⟨n + 1, h⟩ (ix2 a j) * hidBlk V c ⟨n + 1, h⟩ (ix2 a j)) (outs_6 c j n (Nat.lt_of_succ_lt h))

end Arrays

section Finals

variable (V : (c : Dev nD) → (b : Ref sig .tc) → Buf (Elt Ideal) ((c : Thread nD τ).loc b))

/-- The column sums of the hidden array, as a row. -/
def sumArr (H : S50000x128.Idx → EReal) : S1x128.Idx → EReal := fun i => ∑ r : Fin 50000, H (ix2 r (i 1 : Fin 128))

/-- The column sums of squares of the hidden array, as a row. -/
def sqArr (H : S50000x128.Idx → EReal) : S1x128.Idx → EReal :=
  fun i => ∑ r : Fin 50000, H (ix2 r (i 1 : Fin 128)) * H (ix2 r (i 1 : Fin 128))

theorem sumArr_apply (H : S50000x128.Idx → EReal) (j : Fin 128) : sumArr H (ix2 0 j) = ∑ r : Fin 50000, H (ix2 r j) := rfl

theorem sqArr_apply (H : S50000x128.Idx → EReal) (j : Fin 128) :
    sqArr H (ix2 0 j) = ∑ r : Fin 50000, H (ix2 r j) * H (ix2 r j) := rfl

attribute [local irreducible] sumArr sqArr

/-- The five blocks' column sums make the column sum over all rows. -/
theorem total_sum (c : Dev nD) (j : Fin 128) :
    ∑ k ∈ Finset.range 5, blkSum V c j k = ∑ r : Fin 50000, hidV V c (ix2 r j) := by
  rw [← Cert.LibBlockSums.sum_blocks 5 10000 50000 rfl (fun r => hidV V c (ix2 r j))]
  refine Finset.sum_congr rfl fun k hk => ?_
  have hk5 : k < 5 := Finset.mem_range.mp hk
  have hkN : k < cfg0.N := lt_of_lt_of_eq hk5 N_0.symm
  rw [blkSum, dif_pos hkN]
  refine Finset.sum_congr rfl fun a _ => ?_
  have ha : k * 10000 + a.val < 50000 := by have := a.isLt; omega
  rw [hidBlk_apply V c ⟨k, hkN⟩ a j, dif_pos ha]
  rfl

/-- The five blocks' column sums of squares make the column sum of squares over all rows. -/
theorem total_sq (c : Dev nD) (j : Fin 128) :
    ∑ k ∈ Finset.range 5, blkSq V c j k = ∑ r : Fin 50000, hidV V c (ix2 r j) * hidV V c (ix2 r j) := by
  rw [← Cert.LibBlockSums.sum_blocks 5 10000 50000 rfl (fun r => hidV V c (ix2 r j) * hidV V c (ix2 r j))]
  refine Finset.sum_congr rfl fun k hk => ?_
  have hk5 : k < 5 := Finset.mem_range.mp hk
  have hkN : k < cfg0.N := lt_of_lt_of_eq hk5 N_0.symm
  rw [blkSq, dif_pos hkN]
  refine Finset.sum_congr rfl fun a _ => ?_
  have ha : k * 10000 + a.val < 50000 := by have := a.isLt; omega
  rw [hidBlk_apply V c ⟨k, hkN⟩ a j, dif_pos ha]
  rfl

/-- What point t writes back of the hidden array is block t of the hidden array of the arrays the region finds. -/
theorem flushed_4 (c : Dev nD) (t : Fin cfg0.N) :
    (dat0 V c).flushed 4 t = ((cfg0.win 4).blk t).view.read (Elt Ideal) (hidV V c) := by
  show (cfg0.win 4).cut (grid0.coords t) ((dat0 V c).after 4 t) = _
  rw [after0_4, outs_4]
  funext y
  obtain ⟨a, j, rfl⟩ : ∃ (a : Fin 10000) (j : Fin 128), y = ix2 a j := ⟨y 0, y 1, eq_ix2 y⟩
  rw [View.read_apply]
  obtain ⟨-, -, -, -, ⟨e0, e1⟩, -⟩ := idx_facts t
  have hemb : ((cfg0.win 4).blk t).view.emb (ix2 a j) = ix2 (rowOf t.val (lt5 t) a) j :=
    funext fun ax => Fin.ext (by
      match ax with
      | ⟨0, _⟩ => show win0_4.index t (0 : Fin 2) * 10000 + 1 * a.val = t.val * 10000 + a.val; rw [e0]; omega
      | ⟨1, _⟩ => show win0_4.index t (1 : Fin 2) * 128 + 1 * j.val = j.val; rw [e1]; omega)
  show hidBlk V c t (ix2 a j) = hidV V c (((cfg0.win 4).blk t).view.emb (ix2 a j))
  rw [hemb]
  exact hidBlk_apply V c t a j

theorem mem_blk4 (t : Fin cfg0.N) (i : S50000x128.Idx) :
    i ∈ ((cfg0.win 4).blk t).view.set ↔ ∀ a : Fin 2, win0_4.index t a * S10000x128.size a ≤ (i a).val
      ∧ (i a).val < win0_4.index t a * S10000x128.size a + S10000x128.size a := by
  show i ∈ ((View.whole main_v25_0).slice (win0_4.rect t)).set ↔ _
  rw [View.set_slice_whole, Rect.mem_set_unit]
  exact Iff.rfl

/-- The five row blocks fill the hidden array. -/
theorem final_4 (c : Dev nD) : (dat0 V c).arrAt 4 cfg0.N = hidV V c :=
  (dat0 V c).arrAt_eq_of_cover 4 _ (fun t _ => flushed_4 V c t) (fun i => by
    have hi0 : (i 0).val < 50000 := (i 0).isLt
    have hi1 : (i 1).val < 128 := (i 1).isLt
    have hN : cfg0.N = 5 := N_0
    have hlt : (i 0).val / 10000 < cfg0.N := by omega
    refine ⟨⟨(i 0).val / 10000, hlt⟩, flush0_4 _, ?_⟩
    rw [mem_blk4]
    obtain ⟨-, -, -, -, ⟨e0, e1⟩, -⟩ := idx_facts ⟨(i 0).val / 10000, hlt⟩
    intro a
    match a with
    | ⟨0, _⟩ =>
      show win0_4.index ⟨(i 0).val / 10000, hlt⟩ (0 : Fin 2) * 10000 ≤ (i 0).val
        ∧ (i 0).val < win0_4.index ⟨(i 0).val / 10000, hlt⟩ (0 : Fin 2) * 10000 + 10000
      rw [e0]; dsimp only; omega
    | ⟨1, _⟩ =>
      show win0_4.index ⟨(i 0).val / 10000, hlt⟩ (1 : Fin 2) * 128 ≤ (i 1).val
        ∧ (i 1).val < win0_4.index ⟨(i 0).val / 10000, hlt⟩ (1 : Fin 2) * 128 + 128
      rw [e1]; omega)

/-- The one write-back of the running column sum, after the last point, writes the column sums over all rows. -/
theorem flushed_5 (c : Dev nD) (t : Fin cfg0.N) (hf : (cfg0.win 5).flush t = true) :
    (dat0 V c).flushed 5 t = ((cfg0.win 5).blk t).view.read (Elt Ideal) (sumArr (hidV V c)) := by
  have hN : cfg0.N = 5 := N_0
  have h4 : t.val = 4 := by have := (flush0_5 t).mp hf; have := t.isLt; omega
  obtain rfl : t = t0_4 := Fin.ext h4
  show (cfg0.win 5).cut (grid0.coords t0_4) ((dat0 V c).after 5 t0_4) = _
  rw [after0_5]
  funext y
  obtain ⟨u, j, rfl⟩ : ∃ (u : Fin 1) (j : Fin 128), y = ix2 u j := ⟨y 0, y 1, eq_ix2 y⟩
  obtain rfl : u = 0 := Subsingleton.elim _ _
  rw [View.read_apply]
  obtain ⟨-, -, -, -, -, ⟨e0, e1⟩, -⟩ := idx_facts t0_4
  have hemb : ((cfg0.win 5).blk t0_4).view.emb (ix2 0 j) = ix2 0 j :=
    funext fun ax => Fin.ext (by
      match ax with
      | ⟨0, _⟩ => show win0_5.index t0_4 (0 : Fin 2) * 1 + 1 * 0 = 0; rw [e0]
      | ⟨1, _⟩ => show win0_5.index t0_4 (1 : Fin 2) * 128 + 1 * j.val = j.val; rw [e1]; omega)
  show (outsAt0 V c t0_4.val t0_4.isLt).2.1 (ix2 0 j) = sumArr (hidV V c) (((cfg0.win 5).blk t0_4).view.emb (ix2 0 j))
  rw [hemb, sumArr_apply, outs_5 V c j t0_4.val t0_4.isLt]
  exact total_sum V c j

theorem flushed_6 (c : Dev nD) (t : Fin cfg0.N) (hf : (cfg0.win 6).flush t = true) :
    (dat0 V c).flushed 6 t = ((cfg0.win 6).blk t).view.read (Elt Ideal) (sqArr (hidV V c)) := by
  have hN : cfg0.N = 5 := N_0
  have h4 : t.val = 4 := by have := (flush0_6 t).mp hf; have := t.isLt; omega
  obtain rfl : t = t0_4 := Fin.ext h4
  show (cfg0.win 6).cut (grid0.coords t0_4) ((dat0 V c).after 6 t0_4) = _
  rw [after0_6]
  funext y
  obtain ⟨u, j, rfl⟩ : ∃ (u : Fin 1) (j : Fin 128), y = ix2 u j := ⟨y 0, y 1, eq_ix2 y⟩
  obtain rfl : u = 0 := Subsingleton.elim _ _
  rw [View.read_apply]
  obtain ⟨-, -, -, -, -, -, ⟨e0, e1⟩⟩ := idx_facts t0_4
  have hemb : ((cfg0.win 6).blk t0_4).view.emb (ix2 0 j) = ix2 0 j :=
    funext fun ax => Fin.ext (by
      match ax with
      | ⟨0, _⟩ => show win0_6.index t0_4 (0 : Fin 2) * 1 + 1 * 0 = 0; rw [e0]
      | ⟨1, _⟩ => show win0_6.index t0_4 (1 : Fin 2) * 128 + 1 * j.val = j.val; rw [e1]; omega)
  show (outsAt0 V c t0_4.val t0_4.isLt).2.2 (ix2 0 j) = sqArr (hidV V c) (((cfg0.win 6).blk t0_4).view.emb (ix2 0 j))
  rw [hemb, sqArr_apply, outs_6 V c j t0_4.val t0_4.isLt]
  exact total_sq V c j

theorem mem_blk5 (t : Fin cfg0.N) (i : S1x128.Idx) :
    i ∈ ((cfg0.win 5).blk t).view.set ↔ ∀ a : Fin 2, win0_5.index t a * S1x128.size a ≤ (i a).val
      ∧ (i a).val < win0_5.index t a * S1x128.size a + S1x128.size a := by
  show i ∈ ((View.whole main_v25_1).slice (win0_5.rect t)).set ↔ _
  rw [View.set_slice_whole, Rect.mem_set_unit]
  exact Iff.rfl

/-- The last point's block is the whole row, so after the region the row holds the sums over all rows. -/
theorem final_5 (c : Dev nD) : (dat0 V c).arrAt 5 cfg0.N = sumArr (hidV V c) :=
  (dat0 V c).arrAt_eq_of_cover 5 (sumArr (hidV V c)) (fun t hf => flushed_5 V c t hf) (fun i => by
    refine ⟨t0_4, (flush0_5 t0_4).mpr rfl, ?_⟩
    rw [mem_blk5]
    obtain ⟨-, -, -, -, -, ⟨e0, e1⟩, -⟩ := idx_facts t0_4
    have hi0 : (i 0).val < 1 := (i 0).isLt
    have hi1 : (i 1).val < 128 := (i 1).isLt
    intro a
    match a with
    | ⟨0, _⟩ =>
      show win0_5.index t0_4 (0 : Fin 2) * 1 ≤ (i 0).val ∧ (i 0).val < win0_5.index t0_4 (0 : Fin 2) * 1 + 1
      rw [e0]; omega
    | ⟨1, _⟩ =>
      show win0_5.index t0_4 (1 : Fin 2) * 128 ≤ (i 1).val ∧ (i 1).val < win0_5.index t0_4 (1 : Fin 2) * 128 + 128
      rw [e1]; omega)

theorem mem_blk6 (t : Fin cfg0.N) (i : S1x128.Idx) :
    i ∈ ((cfg0.win 6).blk t).view.set ↔ ∀ a : Fin 2, win0_6.index t a * S1x128.size a ≤ (i a).val
      ∧ (i a).val < win0_6.index t a * S1x128.size a + S1x128.size a := by
  show i ∈ ((View.whole main_v25_2).slice (win0_6.rect t)).set ↔ _
  rw [View.set_slice_whole, Rect.mem_set_unit]
  exact Iff.rfl

/-- The last point's block is the whole row, so after the region the row holds the sums over all rows. -/
theorem final_6 (c : Dev nD) : (dat0 V c).arrAt 6 cfg0.N = sqArr (hidV V c) :=
  (dat0 V c).arrAt_eq_of_cover 6 (sqArr (hidV V c)) (fun t hf => flushed_6 V c t hf) (fun i => by
    refine ⟨t0_4, (flush0_6 t0_4).mpr rfl, ?_⟩
    rw [mem_blk6]
    obtain ⟨-, -, -, -, -, -, ⟨e0, e1⟩⟩ := idx_facts t0_4
    have hi0 : (i 0).val < 1 := (i 0).isLt
    have hi1 : (i 1).val < 128 := (i 1).isLt
    intro a
    match a with
    | ⟨0, _⟩ =>
      show win0_6.index t0_4 (0 : Fin 2) * 1 ≤ (i 0).val ∧ (i 0).val < win0_6.index t0_4 (0 : Fin 2) * 1 + 1
      rw [e0]; omega
    | ⟨1, _⟩ =>
      show win0_6.index t0_4 (1 : Fin 2) * 128 ≤ (i 1).val ∧ (i 1).val < win0_6.index t0_4 (1 : Fin 2) * 128 + 128
      rw [e1]; omega)

end Finals

end Cert.KernelIdeal.KReg0

end
-- ==== Proof.KReg1.lean ====
/-
  The second kernel's output array as one function of the arrays it finds.

  The grid has five points; point t works on rows 10000·t … 10000·t + 9999 of the hidden array and writes the same
  rows of the output; the nine small operands are read whole at every point. So the output array's entry (r, j) is
  the second body's formula at row r of the hidden array.
-/
import proofs.«135048_j90443421319566_1_alg».proof.Proof.Gen.KernelIdeal.Frame
import proofs.«135048_j90443421319566_1_alg».proof.Proof.KBlocks

noncomputable section

open scoped BigOperators

namespace Cert.KernelIdeal.KReg1

open Idealize.ShloMosaic Idealize.ShloMosaic.TcCoe Idealize.ShloMosaic.ValueIdx Idealize.SL.Sem
open Idealize.ShloMosaic.Pipeline (Dat)
open Cert.KernelIdeal Cert.KernelIdeal.Gen Cert.GinSpec

variable (V : (c : Dev nD) → (b : Ref sig .tc) → Buf (Elt Ideal) ((c : Thread nD τ).loc b))

theorem hz : (![0, 0] : Fin 2 → Nat) = fun _ => 0 := funext fun a => by fin_cases a <;> rfl

/-- Row a of block n, as a row of the whole array. -/
def rowOf (n : Nat) (hn : n < 5) (a : Fin 10000) : Fin 50000 := ⟨n * 10000 + a.val, by have := a.isLt; omega⟩

theorem lt5 (t : Fin cfg1.N) : t.val < 5 := by have := t.isLt; have h : cfg1.N = 5 := N_1; omega

/-- The printed index maps over the grid: the row-blocked windows sit at block (t, 0), the others at block (0, 0). -/
theorem idx_facts : ∀ t : Fin cfg1.N,
    (win1_0.index t (0 : Fin 2) = t.val ∧ win1_0.index t (1 : Fin 2) = 0)
    ∧ (win1_9.index t (0 : Fin 2) = t.val ∧ win1_9.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-- The hidden array's block at point t is its rows 10000·t + a. -/
theorem blk_0 (c : Dev nD) (t : Fin cfg1.N) (y : S10000x128.Idx) :
    (iblk1 V c 0 t : Vec Ideal S10000x128 .f32) y = V c main_v25_0 (ix2 (rowOf t.val (lt5 t) (y 0)) (y 1)) := by
  obtain ⟨⟨e0, e1⟩, -⟩ := idx_facts t
  unfold iblk1
  rw [View.read_apply]
  show V c main_v25_0 _ = V c main_v25_0 _
  refine congrArg (V c main_v25_0) (funext fun a => Fin.ext ?_)
  match a with
  | ⟨0, _⟩ => show win1_0.index t (0 : Fin 2) * 10000 + 1 * (y 0).val = t.val * 10000 + (y 0).val; rw [e0]; omega
  | ⟨1, _⟩ => show win1_0.index t (1 : Fin 2) * 128 + 1 * (y 1).val = (y 1).val; rw [e1]; omega

/-- Operand 1 is read whole at every point. -/
theorem blk_1 (c : Dev nD) (t : Fin cfg1.N) (y : S1x128.Idx) :
    (iblk1 V c 1 t : Vec Ideal S1x128 .f32) y = V c main_v25_1 y := by
  obtain ⟨-, -, ⟨e0, e1⟩, -, -, -, -, -, -, -⟩ := idx_facts t
  unfold iblk1
  rw [View.read_apply]
  show V c main_v25_1 _ = V c main_v25_1 _
  refine congrArg (V c main_v25_1) (funext fun a => Fin.ext ?_)
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- Operand 2 is read whole at every point. -/
theorem blk_2 (c : Dev nD) (t : Fin cfg1.N) (y : S1x128.Idx) :
    (iblk1 V c 2 t : Vec Ideal S1x128 .f32) y = V c main_v25_2 y := by
  obtain ⟨-, -, -, ⟨e0, e1⟩, -, -, -, -, -, -⟩ := idx_facts t
  unfold iblk1
  rw [View.read_apply]
  show V c main_v25_2 _ = V c main_v25_2 _
  refine congrArg (V c main_v25_2) (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- Operand 3 is read whole at every point. -/
theorem blk_3 (c : Dev nD) (t : Fin cfg1.N) (y : S1x128.Idx) :
    (iblk1 V c 3 t : Vec Ideal S1x128 .f32) y = V c main_v21 y := by
  obtain ⟨-, -, -, -, ⟨e0, e1⟩, -, -, -, -, -⟩ := idx_facts t
  unfold iblk1
  rw [View.read_apply]
  show V c main_v21 _ = V c main_v21 _
  refine congrArg (V c main_v21) (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- Operand 4 is read whole at every point. -/
theorem blk_4 (c : Dev nD) (t : Fin cfg1.N) (y : S1x128.Idx) :
    (iblk1 V c 4 t : Vec Ideal S1x128 .f32) y = V c main_v22 y := by
  obtain ⟨-, -, -, -, -, ⟨e0, e1⟩, -, -, -, -⟩ := idx_facts t
  unfold iblk1
  rw [View.read_apply]
  show V c main_v22 _ = V c main_v22 _
  refine congrArg (V c main_v22) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- Operand 5 is read whole at every point. -/
theorem blk_5 (c : Dev nD) (t : Fin cfg1.N) (y : S128x128.Idx) :
    (iblk1 V c 5 t : Vec Ideal S128x128 .f32) y = V c main_arg6 y := by
  obtain ⟨-, -, -, -, -, -, ⟨e0, e1⟩, -, -, -⟩ := idx_facts t
  unfold iblk1
  rw [View.read_apply]
  show V c main_arg6 _ = V c main_arg6 _
  refine congrArg (V c main_arg6) (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- Operand 6 is read whole at every point. -/
theorem blk_6 (c : Dev nD) (t : Fin cfg1.N) (y : S1x128.Idx) :
    (iblk1 V c 6 t : Vec Ideal S1x128 .f32) y = V c main_v23 y := by
  obtain ⟨-, -, -, -, -, -, -, ⟨e0, e1⟩, -, -⟩ := idx_facts t
  unfold iblk1
  rw [View.read_apply]
  show V c main_v23 _ = V c main_v23 _
  refine congrArg (V c main_v23) (funext fun a => Fin.ext ?_)
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- Operand 7 is read whole at every point. -/
theorem blk_7 (c : Dev nD) (t : Fin cfg1.N) (y : S128x128.Idx) :
    (iblk1 V c 7 t : Vec Ideal S128x128 .f32) y = V c main_v16 y := by
  obtain ⟨-, -, -, -, -, -, -, -, ⟨e0, e1⟩, -⟩ := idx_facts t
  unfold iblk1
  rw [View.read_apply]
  show V c main_v16 _ = V c main_v16 _
  refine congrArg (V c main_v16) (funext fun a => Fin.ext ?_)
  match a with
  | ⟨0, _⟩ => show win1_7.index t (0 : Fin 2) * 128 + 1 * (y 0).val = (y 0).val; rw [e0]; omega
  | ⟨1, _⟩ => show win1_7.index t (1 : Fin 2) * 128 + 1 * (y 1).val = (y 1).val; rw [e1]; omega

/-- Operand 8 is read whole at every point. -/
theorem blk_8 (c : Dev nD) (t : Fin cfg1.N) (y : S1x128.Idx) :
    (iblk1 V c 8 t : Vec Ideal S1x128 .f32) y = V c main_v24 y := by
  obtain ⟨-, -, -, -, -, -, -, -, -, ⟨e0, e1⟩⟩ := idx_facts t
  unfold iblk1
  rw [View.read_apply]
  show V c main_v24 _ = V c main_v24 _
  refine congrArg (V c main_v24) (funext fun a => Fin.ext ?_)
  match a with
  | ⟨0, _⟩ => show win1_8.index t (0 : Fin 2) * 1 + 1 * (y 0).val = (y 0).val; rw [e0]; omega
  | ⟨1, _⟩ => show win1_8.index t (1 : Fin 2) * 128 + 1 * (y 1).val = (y 1).val; rw [e1]; omega

/-- The output array's entry (r, j): the second body's formula at row r of the hidden array `h`, with the column sums
    `s`, `q` and the small operands read whole. -/
def outPad (h : S50000x128.Idx → EReal) (s q g be : S1x128.Idx → EReal) (W2 : S128x128.Idx → EReal)
    (b2 : S1x128.Idx → EReal) (Wl : S128x128.Idx → EReal) (bl : S1x128.Idx → EReal) : S50000x128.Idx → EReal :=
  fun i => outF (fun (r : Fin 50000) k => h (ix2 r k))
    (fun k => s (ix2 0 k) * ((1 / 50000 : ℝ) : EReal))
    (fun k => q (ix2 0 k) * ((1 / 50000 : ℝ) : EReal) - s (ix2 0 k) * ((1 / 50000 : ℝ) : EReal) * (s (ix2 0 k) * ((1 / 50000 : ℝ) : EReal)))
    (Ideal.ofBits .f32 0x3727C5AC#32) (fun k => g (ix2 0 k)) (fun k => be (ix2 0 k))
    (fun k k2 => W2 (ix2 k k2)) (fun k => b2 (ix2 0 k)) (fun k j => Wl (ix2 k j)) (fun j => bl (ix2 0 j))
    (i 0 : Fin 50000) (i 1 : Fin 128)

/-- What point t writes back is block t of `outPad` of the arrays the region finds. -/
theorem flushed_eq (c : Dev nD) (t : Fin cfg1.N) :
    (dat1 V c).flushed 9 t = ((cfg1.win 9).blk t).view.read (Elt Ideal)
      (outPad (V c main_v25_0) (V c main_v25_1) (V c main_v25_2) (V c main_v21) (V c main_v22) (V c main_arg6)
        (V c main_v23) (V c main_v16) (V c main_v24)) := by
  show (cfg1.win 9).cut (grid1.coords t) ((dat1 V c).after 9 t) = _
  rw [after1_9]
  unfold out1_9
  rw [View.canon_unit_zero hz]
  simp only [View.ld_unit_zero (S := S10000x128) hz, View.ld_unit_zero (S := S1x128) hz, View.ld_unit_zero (S := S128x128) hz]
  funext y
  obtain ⟨a, j, rfl⟩ : ∃ (a : Fin 10000) (j : Fin 128), y = ix2 a j := ⟨y 0, y 1, eq_ix2 y⟩
  rw [View.read_apply]
  refine (Cert.KernelIdeal.KBlocks.out_block_apply (iblk1 V c 0 t) (iblk1 V c 1 t) (iblk1 V c 2 t) (iblk1 V c 3 t)
    (iblk1 V c 4 t) (iblk1 V c 5 t) (iblk1 V c 6 t) (iblk1 V c 7 t) (iblk1 V c 8 t) a j).trans ?_
  obtain ⟨-, ⟨e0, e1⟩, -⟩ := idx_facts t
  have hemb : ((cfg1.win 9).blk t).view.emb (ix2 a j) = ix2 (rowOf t.val (lt5 t) a) j :=
    funext fun ax => Fin.ext (by
      match ax with
      | ⟨0, _⟩ => show win1_9.index t (0 : Fin 2) * 10000 + 1 * a.val = t.val * 10000 + a.val; rw [e0]; omega
      | ⟨1, _⟩ => show win1_9.index t (1 : Fin 2) * 128 + 1 * j.val = j.val; rw [e1]; omega)
  show _ = outPad (V c main_v25_0) (V c main_v25_1) (V c main_v25_2) (V c main_v21) (V c main_v22) (V c main_arg6)
        (V c main_v23) (V c main_v16) (V c main_v24) (((cfg1.win 9).blk t).view.emb (ix2 a j))
  rw [hemb]
  unfold outPad
  simp only [blk_1 V c t, blk_2 V c t, blk_3 V c t, blk_4 V c t, blk_5 V c t, blk_6 V c t, blk_7 V c t, blk_8 V c t]
  exact Cert.KernelIdeal.KBlocks.outF_congr _ _ _ _ _ _ _ _ _ _ _ a (rowOf t.val (lt5 t) a) (fun k => blk_0 V c t (ix2 a k)) j

/-- An index of the output array is in point t's block iff each coordinate is in the block's range on its axis. -/
theorem mem_blk (t : Fin cfg1.N) (i : S50000x128.Idx) :
    i ∈ ((cfg1.win 9).blk t).view.set ↔ ∀ a : Fin 2, win1_9.index t a * S10000x128.size a ≤ (i a).val
      ∧ (i a).val < win1_9.index t a * S10000x128.size a + S10000x128.size a := by
  show i ∈ ((View.whole main_v26).slice (win1_9.rect t)).set ↔ _
  rw [View.set_slice_whole, Rect.mem_set_unit]
  exact Iff.rfl

/-- The five row blocks fill the output array, so after the region it is `outPad` of the arrays the region found. -/
theorem final (c : Dev nD) :
    (dat1 V c).arrAt 9 cfg1.N = outPad (V c main_v25_0) (V c main_v25_1) (V c main_v25_2) (V c main_v21) (V c main_v22)
      (V c main_arg6) (V c main_v23) (V c main_v16) (V c main_v24) :=
  (dat1 V c).arrAt_eq_of_cover 9 _ (fun t _ => flushed_eq V c t) (fun i => by
    have hi0 : (i 0).val < 50000 := (i 0).isLt
    have hi1 : (i 1).val < 128 := (i 1).isLt
    have hN : cfg1.N = 5 := N_1
    have hlt : (i 0).val / 10000 < cfg1.N := by omega
    refine ⟨⟨(i 0).val / 10000, hlt⟩, flush1_9 _, ?_⟩
    rw [mem_blk]
    obtain ⟨-, ⟨e0, e1⟩, -⟩ := idx_facts ⟨(i 0).val / 10000, hlt⟩
    intro a
    match a with
    | ⟨0, _⟩ =>
      show win1_9.index ⟨(i 0).val / 10000, hlt⟩ (0 : Fin 2) * 10000 ≤ (i 0).val
        ∧ (i 0).val < win1_9.index ⟨(i 0).val / 10000, hlt⟩ (0 : Fin 2) * 10000 + 10000
      rw [e0]; dsimp only; omega
    | ⟨1, _⟩ =>
      show win1_9.index ⟨(i 0).val / 10000, hlt⟩ (1 : Fin 2) * 128 ≤ (i 1).val
        ∧ (i 1).val < win1_9.index ⟨(i 0).val / 10000, hlt⟩ (1 : Fin 2) * 128 + 128
      rw [e1]; omega)

end Cert.KernelIdeal.KReg1

end
-- ==== Proof.LibScatterSet.lean ====
/-
  A host scatter whose body returns the update (jnp's `x.at[…].set(u)`), read at an index.

  `Host.scatter` is a left fold over the update indices in row-major order: each update whose result index lies inside
  the operand replaces the element there. Read at ONE operand index `i` the fold is decided by which updates land on
  `i`: none — the operand's element survives —, or exactly one — its update is what is left. Both facts are proved
  here for any dimension numbers, and then specialised to the scatter that writes one whole COLUMN of the last axis of a
  rank-4 operand, `x.at[..., k].set(u)`: operand `[A, B, C, W]`, one scalar scatter index, updates `[A, B, C]`.
-/
import Idealize.ShloMosaic.Lib.ValueIdx
import Idealize.ShloMosaic.PureOps

noncomputable section

namespace Cert.ScatterSet

open Idealize.ShloMosaic Idealize.ShloMosaic.ValueIdx

/-! ## The fold at one operand index -/

section Fold
variable {s si u : Shape} {w : Nat} {α : Type} (d : ScatterDims s si u) (f : α → α → α) (x : s.Idx → α) (idx : IVec si w)
  (upd : u.Idx → α) (i : s.Idx)

/-- The fold over ANY list of update positions, at an operand index on which none of them lands: the start value. -/
theorem fold_of_forall_ne (l : List (Fin u.numel)) (r : s.Idx → α)
    (h : ∀ n ∈ l, d.resultIdx? (u.rowMajor.symm n) idx ≠ some i) :
    (l.foldl (fun r n =>
      match d.resultIdx? (u.rowMajor.symm n) idx with
      | some k => fun i' => if i' = k then f (r k) (upd (u.rowMajor.symm n)) else r i'
      | none => r) r) i = r i := by
  induction l generalizing r with
  | nil => rfl
  | cons n l ih =>
    rw [List.foldl_cons, ih _ (fun n' hn' => h n' (List.mem_cons_of_mem _ hn'))]
    have hn := h n (List.mem_cons_self ..)
    generalize d.resultIdx? (u.rowMajor.symm n) idx = o at hn ⊢
    cases o with
    | none => rfl
    | some k =>
      have hne : i ≠ k := fun e => hn (by rw [e])
      show (if i = k then _ else r i) = r i
      rw [if_neg hne]

/-- NO UPDATE LANDS on `i`: the scatter leaves the operand's element there, whatever the body. -/
theorem scatter_apply_of_forall_ne (h : ∀ j : u.Idx, d.resultIdx? j idx ≠ some i) :
    Host.scatter d f x idx upd i = x i := by
  unfold Host.scatter
  exact fold_of_forall_ne d f idx upd i _ x (fun n _ => h _)

/-- The fold of the body that returns the update, over a list without repeats holding the one position `n₀` whose
    update lands on `i`: that update. -/
theorem fold_set_of_unique (l : List (Fin u.numel)) (hl : l.Nodup) (r : s.Idx → α) (n₀ : Fin u.numel) (hn₀ : n₀ ∈ l)
    (h₀ : d.resultIdx? (u.rowMajor.symm n₀) idx = some i)
    (huniq : ∀ n ∈ l, d.resultIdx? (u.rowMajor.symm n) idx = some i → n = n₀) :
    (l.foldl (fun r n =>
      match d.resultIdx? (u.rowMajor.symm n) idx with
      | some k => fun i' => if i' = k then (fun _ b => b) (r k) (upd (u.rowMajor.symm n)) else r i'
      | none => r) r) i = upd (u.rowMajor.symm n₀) := by
  induction l generalizing r with
  | nil => exact absurd hn₀ (List.not_mem_nil)
  | cons n l ih =>
    rw [List.foldl_cons]
    rw [List.nodup_cons] at hl
    by_cases hnn : n = n₀
    · subst hnn
      rw [fold_of_forall_ne d (fun _ b => b) idx upd i l _ (fun n' hn' e =>
        hl.1 (by rw [huniq n' (List.mem_cons_of_mem _ hn') e] at hn'; exact hn'))]
      rw [h₀]
      show (if i = i then upd (u.rowMajor.symm n) else r i) = _
      rw [if_pos rfl]
    · have hmem : n₀ ∈ l := by
        rcases List.mem_cons.mp hn₀ with e | e
        · exact absurd e.symm hnn
        · exact e
      exact ih hl.2 _ hmem (fun n' hn' => huniq n' (List.mem_cons_of_mem _ hn'))

/-- EXACTLY ONE UPDATE `j₀` LANDS on `i`, and the body returns the update: the scatter leaves that update there. -/
theorem scatter_set_apply_of_unique (j₀ : u.Idx) (h₀ : d.resultIdx? j₀ idx = some i)
    (huniq : ∀ j : u.Idx, d.resultIdx? j idx = some i → j = j₀) :
    Host.scatter d (fun _ b => b) x idx upd i = upd j₀ := by
  unfold Host.scatter
  have e₀ : u.rowMajor.symm (u.rowMajor j₀) = j₀ := Equiv.symm_apply_apply _ _
  exact (fold_set_of_unique d idx upd i (List.finRange u.numel) (List.nodup_finRange _) x (u.rowMajor j₀) (List.mem_finRange _)
    (by rw [e₀]; exact h₀)
    (fun n _ hn => by
      have := huniq _ hn
      rw [← this]; exact (Equiv.apply_symm_apply _ _).symm)).trans (congrArg upd e₀)

end Fold

/-! ## One column of the last axis of a rank-4 operand: `x.at[..., k].set(u)` -/

/-- The dimension numbers of the scatter that writes ONE COLUMN of the last axis: operand `[A, B, C, W]`, ONE scalar
    scatter index (shape `[1]`, the index vector's axis its only one), updates `[A, B, C]` — every axis of the updates a
    window axis, the operand's last axis inserted and the one the scatter index names. The conditions `wf` are decided
    on a program's literal shapes. -/
abbrev colSetDims (A B C W : Nat)
    (wf : ScatterDims.WF ⟨4, ![A, B, C, W]⟩ ⟨1, ![1]⟩ ⟨3, ![A, B, C]⟩ [0, 1, 2] [3] [3] 0) :
    ScatterDims ⟨4, ![A, B, C, W]⟩ ⟨1, ![1]⟩ ⟨3, ![A, B, C]⟩ where
  updateWindowDims := [0, 1, 2]
  insertedWindowDims := [3]
  scatterDimsToOperandDims := [3]
  indexVectorDim := 0
  wf := wf

section ColSet
variable {A B C W w : Nat} (wf : ScatterDims.WF ⟨4, ![A, B, C, W]⟩ ⟨1, ![1]⟩ ⟨3, ![A, B, C]⟩ [0, 1, 2] [3] [3] 0)
  (idx : IVec ⟨1, ![1]⟩ w) (a : Fin A) (b : Fin B) (c : Fin C)

/-- On the operand's last axis the window of every update starts at the one scatter index, read signed. -/
theorem colSet_start_three : (colSetDims A B C W wf).start (ix3 a b c) idx 3 = (idx (ix1 0)).toInt := by
  unfold ScatterDims.start
  rw [dif_pos (show (3 : Fin 4) ∈ (colSetDims A B C W wf).scatterDimsToOperandDims from List.mem_singleton.mpr rfl)]
  have hsi : (colSetDims A B C W wf).siIdx (ix3 a b c)
      ⟨List.idxOf (3 : Fin 4) (colSetDims A B C W wf).scatterDimsToOperandDims,
        List.idxOf_lt_length_iff.2 (List.mem_singleton.mpr rfl)⟩ = ix1 0 := by
    funext e; refine Fin.ext ?_
    match e with
    | ⟨0, _⟩ => rfl
  rw [hsi]

/-- On the three axes the scatter index does not name the window starts at `0`. -/
theorem colSet_start_zero : (colSetDims A B C W wf).start (ix3 a b c) idx 0 = 0 := by
  unfold ScatterDims.start
  have hne : (0 : Fin 4) ∉ [(3 : Fin 4)] := by decide
  rw [dif_neg (show (0 : Fin 4) ∉ (colSetDims A B C W wf).scatterDimsToOperandDims from hne)]
theorem colSet_start_one : (colSetDims A B C W wf).start (ix3 a b c) idx 1 = 0 := by
  unfold ScatterDims.start
  have hne : (1 : Fin 4) ∉ [(3 : Fin 4)] := by decide
  rw [dif_neg (show (1 : Fin 4) ∉ (colSetDims A B C W wf).scatterDimsToOperandDims from hne)]
theorem colSet_start_two : (colSetDims A B C W wf).start (ix3 a b c) idx 2 = 0 := by
  unfold ScatterDims.start
  have hne : (2 : Fin 4) ∉ [(3 : Fin 4)] := by decide
  rw [dif_neg (show (2 : Fin 4) ∉ (colSetDims A B C W wf).scatterDimsToOperandDims from hne)]

/-- The window coordinate of update `(a, b, c)` on the operand's first three axes is the update's own coordinate … -/
theorem colSet_window_zero : (colSetDims A B C W wf).window (ix3 a b c) 0 = a.val := by
  unfold ScatterDims.window
  have hk : (0 : Fin 4) ∈ (List.finRange 4).filter (· ∉ [(3 : Fin 4)]) := by decide
  rw [dif_pos (show (0 : Fin 4) ∈ (colSetDims A B C W wf).sKept from hk)]
  rfl
theorem colSet_window_one : (colSetDims A B C W wf).window (ix3 a b c) 1 = b.val := by
  unfold ScatterDims.window
  have hk : (1 : Fin 4) ∈ (List.finRange 4).filter (· ∉ [(3 : Fin 4)]) := by decide
  rw [dif_pos (show (1 : Fin 4) ∈ (colSetDims A B C W wf).sKept from hk)]
  rfl
theorem colSet_window_two : (colSetDims A B C W wf).window (ix3 a b c) 2 = c.val := by
  unfold ScatterDims.window
  have hk : (2 : Fin 4) ∈ (List.finRange 4).filter (· ∉ [(3 : Fin 4)]) := by decide
  rw [dif_pos (show (2 : Fin 4) ∈ (colSetDims A B C W wf).sKept from hk)]
  rfl
/-- … and `0` on the last axis, which is inserted. -/
theorem colSet_window_three : (colSetDims A B C W wf).window (ix3 a b c) 3 = 0 := by
  unfold ScatterDims.window
  have hk : (3 : Fin 4) ∉ (List.finRange 4).filter (· ∉ [(3 : Fin 4)]) := by decide
  rw [dif_neg (show (3 : Fin 4) ∉ (colSetDims A B C W wf).sKept from hk)]

/-- WHERE AN UPDATE LANDS: when the scatter index, read signed, is the column `k`, update `(a, b, c)` lands on
    operand element `(a, b, c, k)`. -/
theorem colSet_lands (k : Fin W) (hk : (idx (ix1 0)).toInt = (k.val : Int)) :
    (colSetDims A B C W wf).resultIdx? (ix3 a b c) idx = some (ix4 a b c k) := by
  have s0 := colSet_start_zero wf idx a b c
  have s1 := colSet_start_one wf idx a b c
  have s2 := colSet_start_two wf idx a b c
  have s3 := colSet_start_three wf idx a b c
  have w0 := colSet_window_zero wf a b c
  have w1 := colSet_window_one wf a b c
  have w2 := colSet_window_two wf a b c
  have w3 := colSet_window_three wf a b c
  have hin : ∀ e : Fin 4,
      0 ≤ (colSetDims A B C W wf).start (ix3 a b c) idx e + ((colSetDims A B C W wf).window (ix3 a b c) e : Nat)
      ∧ (colSetDims A B C W wf).start (ix3 a b c) idx e + ((colSetDims A B C W wf).window (ix3 a b c) e : Nat)
          < (((⟨4, ![A, B, C, W]⟩ : Shape).size e : Nat) : Int) := by
    intro e
    match e with
    | ⟨0, _⟩ =>
      show 0 ≤ (colSetDims A B C W wf).start (ix3 a b c) idx 0 + ((colSetDims A B C W wf).window (ix3 a b c) 0 : Nat)
        ∧ (colSetDims A B C W wf).start (ix3 a b c) idx 0 + ((colSetDims A B C W wf).window (ix3 a b c) 0 : Nat) < (A : Int)
      rw [s0, w0]; have := a.isLt; omega
    | ⟨1, _⟩ =>
      show 0 ≤ (colSetDims A B C W wf).start (ix3 a b c) idx 1 + ((colSetDims A B C W wf).window (ix3 a b c) 1 : Nat)
        ∧ (colSetDims A B C W wf).start (ix3 a b c) idx 1 + ((colSetDims A B C W wf).window (ix3 a b c) 1 : Nat) < (B : Int)
      rw [s1, w1]; have := b.isLt; omega
    | ⟨2, _⟩ =>
      show 0 ≤ (colSetDims A B C W wf).start (ix3 a b c) idx 2 + ((colSetDims A B C W wf).window (ix3 a b c) 2 : Nat)
        ∧ (colSetDims A B C W wf).start (ix3 a b c) idx 2 + ((colSetDims A B C W wf).window (ix3 a b c) 2 : Nat) < (C : Int)
      rw [s2, w2]; have := c.isLt; omega
    | ⟨3, _⟩ =>
      show 0 ≤ (colSetDims A B C W wf).start (ix3 a b c) idx 3 + ((colSetDims A B C W wf).window (ix3 a b c) 3 : Nat)
        ∧ (colSetDims A B C W wf).start (ix3 a b c) idx 3 + ((colSetDims A B C W wf).window (ix3 a b c) 3 : Nat) < (W : Int)
      rw [s3, w3, hk]; have := k.isLt; omega
  unfold ScatterDims.resultIdx?
  rw [dif_pos hin]
  refine congrArg some (funext fun e => Fin.ext ?_)
  match e with
  | ⟨0, _⟩ =>
    show ((colSetDims A B C W wf).start (ix3 a b c) idx 0 + ((colSetDims A B C W wf).window (ix3 a b c) 0 : Nat)).toNat = a.val
    rw [s0, w0]; omega
  | ⟨1, _⟩ =>
    show ((colSetDims A B C W wf).start (ix3 a b c) idx 1 + ((colSetDims A B C W wf).window (ix3 a b c) 1 : Nat)).toNat = b.val
    rw [s1, w1]; omega
  | ⟨2, _⟩ =>
    show ((colSetDims A B C W wf).start (ix3 a b c) idx 2 + ((colSetDims A B C W wf).window (ix3 a b c) 2 : Nat)).toNat = c.val
    rw [s2, w2]; omega
  | ⟨3, _⟩ =>
    show ((colSetDims A B C W wf).start (ix3 a b c) idx 3 + ((colSetDims A B C W wf).window (ix3 a b c) 3 : Nat)).toNat = k.val
    rw [s3, w3, hk]; omega

/-- THE COLUMN WRITTEN: at `(a, b, c, k)`, `k` the scatter index, the scatter that returns the update leaves update
    `(a, b, c)`: it is the one update that lands there. -/
theorem scatter_colSet_apply_hit {α : Type} (x : (⟨4, ![A, B, C, W]⟩ : Shape).Idx → α) (upd : (⟨3, ![A, B, C]⟩ : Shape).Idx → α)
    (k : Fin W) (hk : (idx (ix1 0)).toInt = (k.val : Int)) :
    Host.scatter (colSetDims A B C W wf) (fun _ v => v) x idx upd (ix4 a b c k) = upd (ix3 a b c) :=
  scatter_set_apply_of_unique _ x idx upd _ (ix3 a b c) (colSet_lands wf idx a b c k hk) (fun j hj => by
    obtain ⟨a', b', c', rfl⟩ : ∃ (a' : Fin A) (b' : Fin B) (c' : Fin C), j = ix3 a' b' c' := ⟨j 0, j 1, j 2, eq_ix3 j⟩
    rw [colSet_lands wf idx a' b' c' k hk] at hj
    have e := Option.some.inj hj
    have e0 : a' = a := congrFun e 0
    have e1 : b' = b := congrFun e 1
    have e2 : c' = c := congrFun e 2
    rw [e0, e1, e2])

/-- THE OTHER COLUMNS: at `(a, b, c, q)` with `q` not the scatter index no update lands, and the operand's element
    survives, whatever the body. -/
theorem scatter_colSet_apply_miss {α : Type} (f : α → α → α) (x : (⟨4, ![A, B, C, W]⟩ : Shape).Idx → α)
    (upd : (⟨3, ![A, B, C]⟩ : Shape).Idx → α) (k : Fin W) (hk : (idx (ix1 0)).toInt = (k.val : Int)) (q : Fin W) (hq : q ≠ k) :
    Host.scatter (colSetDims A B C W wf) f x idx upd (ix4 a b c q) = x (ix4 a b c q) :=
  scatter_apply_of_forall_ne _ f x idx upd _ (fun j hj => by
    obtain ⟨a', b', c', rfl⟩ : ∃ (a' : Fin A) (b' : Fin B) (c' : Fin C), j = ix3 a' b' c' := ⟨j 0, j 1, j 2, eq_ix3 j⟩
    rw [colSet_lands wf idx a' b' c' k hk] at hj
    have e3 : k = q := congrFun (Option.some.inj hj) 3
    exact hq e3.symm)

end ColSet

end Cert.ScatterSet

end
-- ==== Proof.LibWindowSet.lean ====
/-
  A host scatter that sets a window of columns of a matrix, or a window of a vector, read inside the window.

  jnp's `z.at[:, o:o+n].set(u)` on a matrix `z : [K, N]` with `u : [K, n]` prints as a scatter with ONE scalar scatter
  index (shape `[1]`, holding the column offset `o`), every axis of the updates a window axis and the operand's column
  axis the one the index names; `z.at[o:o+n].set(u)` on a vector likewise. Update `(k, j)` lands on operand element
  `(k, o + j)` and nowhere else, and distinct updates land on distinct elements, so inside the window the result holds
  the update: at `(k, o + j)` it is `u (k, j)`. Generic in the extents and the element type.
-/
import proofs.«135048_j90443421319566_1_alg».proof.Proof.LibScatterSet

noncomputable section

namespace Cert.LibWindowSet

open Idealize.ShloMosaic Idealize.ShloMosaic.ValueIdx

/-! ## Columns of a matrix -/

/-- The dimension numbers of `z.at[:, o:o+n].set(u)`: operand `[K, N]`, one scalar scatter index, updates `[K, n]`. -/
abbrev colsDims (K N n : Nat) (wf : ScatterDims.WF ⟨2, ![K, N]⟩ ⟨1, ![1]⟩ ⟨2, ![K, n]⟩ [0, 1] [] [1] 0) :
    ScatterDims ⟨2, ![K, N]⟩ ⟨1, ![1]⟩ ⟨2, ![K, n]⟩ where
  updateWindowDims := [0, 1]
  insertedWindowDims := []
  scatterDimsToOperandDims := [1]
  indexVectorDim := 0
  wf := wf

section Cols
variable {K N n w : Nat} (wf : ScatterDims.WF ⟨2, ![K, N]⟩ ⟨1, ![1]⟩ ⟨2, ![K, n]⟩ [0, 1] [] [1] 0)
  (idx : IVec ⟨1, ![1]⟩ w) (k : Fin K) (j : Fin n)

/-- On the column axis the window of every update starts at the one scatter index, read signed. -/
theorem cols_start_one : (colsDims K N n wf).start (ix2 k j) idx 1 = (idx (ix1 0)).toInt := by
  unfold ScatterDims.start
  rw [dif_pos (show (1 : Fin 2) ∈ (colsDims K N n wf).scatterDimsToOperandDims from List.mem_singleton.mpr rfl)]
  have hsi : (colsDims K N n wf).siIdx (ix2 k j)
      ⟨List.idxOf (1 : Fin 2) (colsDims K N n wf).scatterDimsToOperandDims,
        List.idxOf_lt_length_iff.2 (List.mem_singleton.mpr rfl)⟩ = ix1 0 := by
    funext e; refine Fin.ext ?_
    match e with
    | ⟨0, _⟩ => rfl
  rw [hsi]

/-- On the row axis, which the scatter index does not name, the window starts at 0. -/
theorem cols_start_zero : (colsDims K N n wf).start (ix2 k j) idx 0 = 0 := by
  unfold ScatterDims.start
  have hne : (0 : Fin 2) ∉ [(1 : Fin 2)] := by decide
  rw [dif_neg (show (0 : Fin 2) ∉ (colsDims K N n wf).scatterDimsToOperandDims from hne)]

/-- The window coordinate of update (k, j) is its own coordinate on each axis. -/
theorem cols_window_zero : (colsDims K N n wf).window (ix2 k j) 0 = k.val := by
  unfold ScatterDims.window
  have hk : (0 : Fin 2) ∈ (List.finRange 2).filter (· ∉ ([] : List (Fin 2))) := by decide
  rw [dif_pos (show (0 : Fin 2) ∈ (colsDims K N n wf).sKept from hk)]
  rfl
theorem cols_window_one : (colsDims K N n wf).window (ix2 k j) 1 = j.val := by
  unfold ScatterDims.window
  have hk : (1 : Fin 2) ∈ (List.finRange 2).filter (· ∉ ([] : List (Fin 2))) := by decide
  rw [dif_pos (show (1 : Fin 2) ∈ (colsDims K N n wf).sKept from hk)]
  rfl

/-- Where an update lands: with the scatter index the offset o, update (k, j) lands on element (k, o + j). -/
theorem cols_lands (o : Nat) (ho : (idx (ix1 0)).toInt = (o : Int)) (q : Fin N) (hq : q.val = o + j.val) :
    (colsDims K N n wf).resultIdx? (ix2 k j) idx = some (ix2 k q) := by
  have s0 := cols_start_zero wf idx k j
  have s1 := cols_start_one wf idx k j
  have w0 := cols_window_zero wf k j
  have w1 := cols_window_one wf k j
  have hin : ∀ e : Fin 2,
      0 ≤ (colsDims K N n wf).start (ix2 k j) idx e + ((colsDims K N n wf).window (ix2 k j) e : Nat)
      ∧ (colsDims K N n wf).start (ix2 k j) idx e + ((colsDims K N n wf).window (ix2 k j) e : Nat)
          < (((⟨2, ![K, N]⟩ : Shape).size e : Nat) : Int) := by
    intro e
    match e with
    | ⟨0, _⟩ =>
      show 0 ≤ (colsDims K N n wf).start (ix2 k j) idx 0 + ((colsDims K N n wf).window (ix2 k j) 0 : Nat)
        ∧ (colsDims K N n wf).start (ix2 k j) idx 0 + ((colsDims K N n wf).window (ix2 k j) 0 : Nat) < (K : Int)
      rw [s0, w0]; have := k.isLt; omega
    | ⟨1, _⟩ =>
      show 0 ≤ (colsDims K N n wf).start (ix2 k j) idx 1 + ((colsDims K N n wf).window (ix2 k j) 1 : Nat)
        ∧ (colsDims K N n wf).start (ix2 k j) idx 1 + ((colsDims K N n wf).window (ix2 k j) 1 : Nat) < (N : Int)
      rw [s1, w1, ho]; have := q.isLt; omega
  unfold ScatterDims.resultIdx?
  rw [dif_pos hin]
  refine congrArg some (funext fun e => Fin.ext ?_)
  match e with
  | ⟨0, _⟩ =>
    show ((colsDims K N n wf).start (ix2 k j) idx 0 + ((colsDims K N n wf).window (ix2 k j) 0 : Nat)).toNat = k.val
    rw [s0, w0]; omega
  | ⟨1, _⟩ =>
    show ((colsDims K N n wf).start (ix2 k j) idx 1 + ((colsDims K N n wf).window (ix2 k j) 1 : Nat)).toNat = q.val
    rw [s1, w1, ho]; omega

/-- INSIDE THE WINDOW: at (k, o + j) the scatter that returns the update leaves update (k, j). -/
theorem scatter_cols_apply {α : Type} (x : (⟨2, ![K, N]⟩ : Shape).Idx → α) (upd : (⟨2, ![K, n]⟩ : Shape).Idx → α)
    (o : Nat) (ho : (idx (ix1 0)).toInt = (o : Int)) (hfit : o + n ≤ N) (q : Fin N) (hq : q.val = o + j.val) :
    Host.scatter (colsDims K N n wf) (fun _ v => v) x idx upd (ix2 k q) = upd (ix2 k j) :=
  Cert.ScatterSet.scatter_set_apply_of_unique _ x idx upd _ (ix2 k j) (cols_lands wf idx k j o ho q hq) (fun j' hj => by
    obtain ⟨k', j'', rfl⟩ : ∃ (k' : Fin K) (j'' : Fin n), j' = ix2 k' j'' := ⟨j' 0, j' 1, eq_ix2 j'⟩
    have hlt : o + j''.val < N := by have := j''.isLt; omega
    rw [cols_lands wf idx k' j'' o ho ⟨o + j''.val, hlt⟩ rfl] at hj
    have e := Option.some.inj hj
    have e0 : k' = k := congrFun e 0
    have e1 : (⟨o + j''.val, hlt⟩ : Fin N) = q := congrFun e 1
    have e2 : j'' = j := Fin.ext (by have := congrArg Fin.val e1; dsimp only at this; omega)
    rw [e0, e2])

end Cols

/-! ## A window of a vector -/

/-- The dimension numbers of `z.at[o:o+n].set(u)`: operand `[N]`, one scalar scatter index, updates `[n]`. -/
abbrev segDims (N n : Nat) (wf : ScatterDims.WF ⟨1, ![N]⟩ ⟨1, ![1]⟩ ⟨1, ![n]⟩ [0] [] [0] 0) :
    ScatterDims ⟨1, ![N]⟩ ⟨1, ![1]⟩ ⟨1, ![n]⟩ where
  updateWindowDims := [0]
  insertedWindowDims := []
  scatterDimsToOperandDims := [0]
  indexVectorDim := 0
  wf := wf

section Seg
variable {N n w : Nat} (wf : ScatterDims.WF ⟨1, ![N]⟩ ⟨1, ![1]⟩ ⟨1, ![n]⟩ [0] [] [0] 0)
  (idx : IVec ⟨1, ![1]⟩ w) (j : Fin n)

theorem seg_start : (segDims N n wf).start (ix1 j) idx 0 = (idx (ix1 0)).toInt := by
  unfold ScatterDims.start
  rw [dif_pos (show (0 : Fin 1) ∈ (segDims N n wf).scatterDimsToOperandDims from List.mem_singleton.mpr rfl)]
  have hsi : (segDims N n wf).siIdx (ix1 j)
      ⟨List.idxOf (0 : Fin 1) (segDims N n wf).scatterDimsToOperandDims,
        List.idxOf_lt_length_iff.2 (List.mem_singleton.mpr rfl)⟩ = ix1 0 := by
    funext e; refine Fin.ext ?_
    match e with
    | ⟨0, _⟩ => rfl
  rw [hsi]

theorem seg_window : (segDims N n wf).window (ix1 j) 0 = j.val := by
  unfold ScatterDims.window
  have hk : (0 : Fin 1) ∈ (List.finRange 1).filter (· ∉ ([] : List (Fin 1))) := by decide
  rw [dif_pos (show (0 : Fin 1) ∈ (segDims N n wf).sKept from hk)]
  rfl

/-- Where an update lands: with the scatter index the offset o, update j lands on element o + j. -/
theorem seg_lands (o : Nat) (ho : (idx (ix1 0)).toInt = (o : Int)) (q : Fin N) (hq : q.val = o + j.val) :
    (segDims N n wf).resultIdx? (ix1 j) idx = some (ix1 q) := by
  have s0 := seg_start wf idx j
  have w0 := seg_window wf j
  have hin : ∀ e : Fin 1,
      0 ≤ (segDims N n wf).start (ix1 j) idx e + ((segDims N n wf).window (ix1 j) e : Nat)
      ∧ (segDims N n wf).start (ix1 j) idx e + ((segDims N n wf).window (ix1 j) e : Nat)
          < (((⟨1, ![N]⟩ : Shape).size e : Nat) : Int) := by
    intro e
    match e with
    | ⟨0, _⟩ =>
      show 0 ≤ (segDims N n wf).start (ix1 j) idx 0 + ((segDims N n wf).window (ix1 j) 0 : Nat)
        ∧ (segDims N n wf).start (ix1 j) idx 0 + ((segDims N n wf).window (ix1 j) 0 : Nat) < (N : Int)
      rw [s0, w0, ho]; have := q.isLt; omega
  unfold ScatterDims.resultIdx?
  rw [dif_pos hin]
  refine congrArg some (funext fun e => Fin.ext ?_)
  match e with
  | ⟨0, _⟩ =>
    show ((segDims N n wf).start (ix1 j) idx 0 + ((segDims N n wf).window (ix1 j) 0 : Nat)).toNat = q.val
    rw [s0, w0, ho]; omega

/-- INSIDE THE WINDOW: at o + j the scatter that returns the update leaves update j. -/
theorem scatter_seg_apply {α : Type} (x : (⟨1, ![N]⟩ : Shape).Idx → α) (upd : (⟨1, ![n]⟩ : Shape).Idx → α)
    (o : Nat) (ho : (idx (ix1 0)).toInt = (o : Int)) (hfit : o + n ≤ N) (q : Fin N) (hq : q.val = o + j.val) :
    Host.scatter (segDims N n wf) (fun _ v => v) x idx upd (ix1 q) = upd (ix1 j) :=
  Cert.ScatterSet.scatter_set_apply_of_unique _ x idx upd _ (ix1 j) (seg_lands wf idx j o ho q hq) (fun j' hj => by
    obtain ⟨j'', rfl⟩ : ∃ j'' : Fin n, j' = ix1 j'' := ⟨j' 0, eq_ix1 j'⟩
    have hlt : o + j''.val < N := by have := j''.isLt; omega
    rw [seg_lands wf idx j'' o ho ⟨o + j''.val, hlt⟩ rfl] at hj
    have e := Option.some.inj hj
    have e1 : (⟨o + j''.val, hlt⟩ : Fin N) = q := congrFun e 0
    have e2 : j'' = j := Fin.ext (by have := congrArg Fin.val e1; dsimp only at this; omega)
    rw [e2])

end Seg

end Cert.LibWindowSet

end
-- ==== Proof.RefTerm.lean ====
/-
  The reference's result as one term of its ten argument arrays.

  The layer adds to each node's features the sum of the features of its in-neighbours (`agg`: the edge list's first row
  gives the sources, a negative source counted from the end, the second row the destinations; the source rows are gathered
  and added into a zero array at the destination rows), applies a dense layer and the rectifier (`hidA`), normalises each
  column by its mean and variance over the nodes (`meanA`, `varA`: the variance is the sum of the squared deviations
  from the mean, divided by the node count less an integer zero, and selected against that count being positive),
  scales and shifts (`normA`), and applies two more dense layers (`outArr`).
  Each definition is the operations' composition, nothing evaluated.
-/
import proofs.«135048_j90443421319566_1_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The source node of each edge: row 0 of the edge list, a negative entry counted from the end of the node axis. -/
def srcIdx (e : IVec S2x600000 32) : IVec S600000 32 :=
  select
    (cmpi .slt (shapeCast S600000 (extractStridedSlice S1x600000 ![0, 0] e slices_S2x600000_S1x600000_0_0) shapeCasts_S1x600000_S600000)
      (broadcastInDim S600000 ![] bcast_S_S600000 (constantI S_ 32 0#32)))
    (addi (shapeCast S600000 (extractStridedSlice S1x600000 ![0, 0] e slices_S2x600000_S1x600000_0_0) shapeCasts_S1x600000_S600000)
      (broadcastInDim S600000 ![] bcast_S_S600000 (constantI S_ 32 50000#32)))
    (shapeCast S600000 (extractStridedSlice S1x600000 ![0, 0] e slices_S2x600000_S1x600000_0_0) shapeCasts_S1x600000_S600000)

/-- The destination node of each edge: row 1 of the edge list. -/
def dstIdx (e : IVec S2x600000 32) : IVec S600000 32 :=
  shapeCast S600000 (extractStridedSlice S1x600000 ![1, 0] e slices_S2x600000_S1x600000_1_0) shapeCasts_S1x600000_S600000

/-- The neighbourhood sum: the source rows of `x` gathered, then added into a zero array at the destination rows. -/
def agg (x : FVec Ideal S50000x128 .f32) (e : IVec S2x600000 32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 (dstIdx e))
    (Host.gather gather_S50000x128_S600000x1_S600000x128_1_0_n_n_0_1_1128 x
      (broadcastInDim S600000x1 ![0] bcast_S600000_S600000x1_0 (srcIdx e)))

/-- The hidden array: features plus neighbourhood sum, the first dense layer with its bias, the rectifier. -/
def hidA (x : FVec Ideal S50000x128 .f32) (e : IVec S2x600000 32) (W1 : FVec Ideal S128x128 .f32) (b1 : FVec Ideal S128 .f32) :
    FVec Ideal S50000x128 .f32 :=
  maximumf
    (addf (Host.dotGeneral dot_S50000x128_S128x128_S50000x128_1_0_0_1_n_n none (addf x (agg x e)) W1)
      (broadcastInDim S50000x128 ![0, 1] bcast_S1x128_S50000x128_0_1 (broadcastInDim S1x128 ![1] bcast_S128_S1x128_1 b1)))
    (broadcastInDim S50000x128 ![] bcast_S_S50000x128 (constant (F := Ideal) S_ .f32 0x00000000#32))

/-- The column sums of an array over the nodes, from zero. -/
def colSumA (H : FVec Ideal S50000x128 .f32) : FVec Ideal S128 .f32 :=
  Host.reduceAdd H (constant (F := Ideal) S_ .f32 0x00000000#32) reducesTo_S50000x128_S128_d0 h_S_

/-- The column means: the column sums divided by the node count. -/
def meanA (H : FVec Ideal S50000x128 .f32) : FVec Ideal S128 .f32 :=
  Host.divf (colSumA H) (broadcastInDim S128 ![] bcast_S_S128 (constant (F := Ideal) S_ .f32 0x47435000#32))

/-- The variance's divisor: the node count less the integer zero converted to a float. -/
def cntA : FVec Ideal S_ .f32 :=
  subf (constant (F := Ideal) S_ .f32 0x47435000#32) (sitofp .f32 (constantI S_ 32 0#32))

/-- The deviations from the column mean, the mean computed again as the variance computes it. -/
def devA (H : FVec Ideal S50000x128 .f32) : FVec Ideal S50000x128 .f32 :=
  subf H
    (broadcastInDim S50000x128 ![0, 1] bcast_S1x128_S50000x128_0_1
      (Host.divf (broadcastInDim S1x128 ![1] bcast_S128_S1x128_1 (colSumA H))
        (broadcastInDim S1x128 ![] bcast_S_S1x128 (constant (F := Ideal) S_ .f32 0x47435000#32))))

/-- The column variances: the sum of the squared deviations over the divisor, where the divisor is positive. -/
def varA (H : FVec Ideal S50000x128 .f32) : FVec Ideal S128 .f32 :=
  select (broadcastInDim S128 ![] bcast_S_S128 (cmpf .ogt cntA (constant (F := Ideal) S_ .f32 0x00000000#32)))
    (Host.divf (colSumA (mulf (devA H) (devA H))) (broadcastInDim S128 ![] bcast_S_S128 cntA))
    (broadcastInDim S128 ![] bcast_S_S128 (id (constant (F := Ideal) S_ .f32 0x7FC00000#32)))

/-- The normalised array, scaled and shifted. -/
def normA (H : FVec Ideal S50000x128 .f32) (g be : FVec Ideal S128 .f32) : FVec Ideal S50000x128 .f32 :=
  addf
    (mulf
      (mulf
        (subf H (broadcastInDim S50000x128 ![0, 1] bcast_S1x128_S50000x128_0_1 (broadcastInDim S1x128 ![1] bcast_S128_S1x128_1 (meanA H))))
        (broadcastInDim S50000x128 ![0, 1] bcast_S1x128_S50000x128_0_1 (broadcastInDim S1x128 ![1] bcast_S128_S1x128_1
          (Host.rsqrt (addf (varA H) (broadcastInDim S128 ![] bcast_S_S128 (constant (F := Ideal) S_ .f32 0x3727C5AC#32)))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 be))

/-- The reference's result: the normalised hidden array through the two further dense layers. -/
def outArr (x : FVec Ideal S50000x128 .f32) (e : IVec S2x600000 32) (W1 : FVec Ideal S128x128 .f32) (b1 g be : FVec Ideal S128 .f32)
    (W2 : FVec Ideal S128x128 .f32) (b2 : FVec Ideal S128 .f32) (Wl : FVec Ideal S128x2 .f32) (bl : FVec Ideal S2 .f32) :
    FVec Ideal S50000x2 .f32 :=
  addf
    (Host.dotGeneral dot_S50000x128_S128x2_S50000x2_1_0_0_1_n_n none
      (addf (Host.dotGeneral dot_S50000x128_S128x128_S50000x128_1_0_0_1_n_n none (normA (hidA x e W1 b1) g be) W2)
        (broadcastInDim S50000x128 ![0, 1] bcast_S1x128_S50000x128_0_1 (broadcastInDim S1x128 ![1] bcast_S128_S1x128_1 b2)))
      Wl)
    (broadcastInDim S50000x2 ![0, 1] bcast_S1x2_S50000x2_0_1 (broadcastInDim S1x2 ![1] bcast_S2_S1x2_1 bl))

end Cert.ReferenceIdeal.RefValue

end
-- ==== Proof.KFinal.lean ====
/-
  The kernel program's result as one function of its argument arrays, entry by entry.

  Host operations first compute the neighbour sums and lay the small operands out as rows, the classifier's weights and
  bias set into the first two columns of zero arrays 128 wide. The first kernel leaves the hidden array and its column
  sums and sums of squares; the second kernel normalises with them and applies the two dense layers; the closing slice
  keeps the first two columns. Entry (r, j) of the result is therefore the classifier's formula at row r with the
  statistics spelt as sum times 1/50000 and mean of squares less squared mean.
-/
import proofs.«135048_j90443421319566_1_alg».proof.Proof.KRun
import proofs.«135048_j90443421319566_1_alg».proof.Proof.KReg0
import proofs.«135048_j90443421319566_1_alg».proof.Proof.KReg1
import proofs.«135048_j90443421319566_1_alg».proof.Proof.LibWindowSet
import proofs.«135048_j90443421319566_1_alg».proof.Proof.RefTerm
import Idealize.ShloMosaic.Lib.StableHlo.Run

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.GinSpec

variable (m : (ℓ : Loc nD τ sig) → Buf (Elt Ideal) ℓ) (ρ : Dev nD → PrngReg)

/-! ## What the host operations before the kernels leave -/

theorem V1_arg0 (c : Dev nD) : V1 m ρ c main_arg0 = (m ((c.tc : Thread nD τ).loc main_arg0)) := by
  show StableHlo.after hostOps0 (W0 m ρ c) (Proc.devRef .tc main_arg0) = _
  after_results <;> rfl

theorem V1_arg2 (c : Dev nD) : V1 m ρ c main_arg2 = (m ((c.tc : Thread nD τ).loc main_arg2)) := by
  show StableHlo.after hostOps0 (W0 m ρ c) (Proc.devRef .tc main_arg2) = _
  after_results <;> rfl

theorem V1_arg6 (c : Dev nD) : V1 m ρ c main_arg6 = (m ((c.tc : Thread nD τ).loc main_arg6)) := by
  show StableHlo.after hostOps0 (W0 m ρ c) (Proc.devRef .tc main_arg6) = _
  after_results <;> rfl

/-- The neighbour sums: the same operations on the same arrays as the reference's. -/
theorem V1_v13 (c : Dev nD) :
    V1 m ρ c main_v13 = Cert.ReferenceIdeal.RefValue.agg (m ((c.tc : Thread nD τ).loc main_arg0)) (m ((c.tc : Thread nD τ).loc main_arg1)) := by
  show StableHlo.after hostOps0 (W0 m ρ c) (Proc.devRef .tc main_v13) = _
  after_results <;> rfl

theorem V1_v20 (c : Dev nD) : V1 m ρ c main_v20 = shapeCast S1x128 (m ((c.tc : Thread nD τ).loc main_arg3)) shapeCasts_S128_S1x128 := by
  show StableHlo.after hostOps0 (W0 m ρ c) (Proc.devRef .tc main_v20) = _
  after_results <;> rfl

theorem V1_v21 (c : Dev nD) : V1 m ρ c main_v21 = shapeCast S1x128 (m ((c.tc : Thread nD τ).loc main_arg4)) shapeCasts_S128_S1x128 := by
  show StableHlo.after hostOps0 (W0 m ρ c) (Proc.devRef .tc main_v21) = _
  after_results <;> rfl

theorem V1_v22 (c : Dev nD) : V1 m ρ c main_v22 = shapeCast S1x128 (m ((c.tc : Thread nD τ).loc main_arg5)) shapeCasts_S128_S1x128 := by
  show StableHlo.after hostOps0 (W0 m ρ c) (Proc.devRef .tc main_v22) = _
  after_results <;> rfl

theorem V1_v23 (c : Dev nD) : V1 m ρ c main_v23 = shapeCast S1x128 (m ((c.tc : Thread nD τ).loc main_arg7)) shapeCasts_S128_S1x128 := by
  show StableHlo.after hostOps0 (W0 m ρ c) (Proc.devRef .tc main_v23) = _
  after_results <;> rfl

/-- The classifier's weights set into the first two columns of a zero array. -/
theorem V1_v16 (c : Dev nD) : V1 m ρ c main_v16
    = Host.scatter scatter_S128x128_S1_S128x2_01_n_1_0 (fun _ b => b)
        (broadcastInDim S128x128 ![] bcast_S_S128x128 (constant (F := Ideal) S_ .f32 0x00000000#32))
        (broadcastInDim S1 ![] bcast_S_S1 (constantI S_ 32 0#32)) (m ((c.tc : Thread nD τ).loc main_arg8)) := by
  show StableHlo.after hostOps0 (W0 m ρ c) (Proc.devRef .tc main_v16) = _
  after_results <;> rfl

/-- The classifier's bias set into the first two entries of a zero vector, as a row. -/
theorem V1_v24 (c : Dev nD) : V1 m ρ c main_v24
    = shapeCast S1x128 (Host.scatter scatter_S128_S1_S2_0_n_0_0 (fun _ b => b)
        (broadcastInDim S128 ![] bcast_S_S128 (constant (F := Ideal) S_ .f32 0x00000000#32))
        (broadcastInDim S1 ![] bcast_S_S1 (constantI S_ 32 0#32)) (m ((c.tc : Thread nD τ).loc main_arg9))) shapeCasts_S128_S1x128 := by
  show StableHlo.after hostOps0 (W0 m ρ c) (Proc.devRef .tc main_v24) = _
  after_results <;> rfl

/-! ## What the first kernel leaves -/

theorem V2_v25_0 (c : Dev nD) : V2 m ρ c main_v25_0 = Cert.KernelIdeal.KReg0.hidV (V1 m ρ) c :=
  (W2_arr m ρ c 4).trans (Cert.KernelIdeal.KReg0.final_4 (V1 m ρ) c)

theorem V2_v25_1 (c : Dev nD) :
    V2 m ρ c main_v25_1 = Cert.KernelIdeal.KReg0.sumArr (Cert.KernelIdeal.KReg0.hidV (V1 m ρ) c) :=
  (W2_arr m ρ c 5).trans (Cert.KernelIdeal.KReg0.final_5 (V1 m ρ) c)

theorem V2_v25_2 (c : Dev nD) :
    V2 m ρ c main_v25_2 = Cert.KernelIdeal.KReg0.sqArr (Cert.KernelIdeal.KReg0.hidV (V1 m ρ) c) :=
  (W2_arr m ρ c 6).trans (Cert.KernelIdeal.KReg0.final_6 (V1 m ρ) c)

theorem V2_v21 (c : Dev nD) : V2 m ρ c main_v21 = V1 m ρ c main_v21 := W2_of_ne m ρ c main_v21 (by decide)
theorem V2_v22 (c : Dev nD) : V2 m ρ c main_v22 = V1 m ρ c main_v22 := W2_of_ne m ρ c main_v22 (by decide)
theorem V2_v23 (c : Dev nD) : V2 m ρ c main_v23 = V1 m ρ c main_v23 := W2_of_ne m ρ c main_v23 (by decide)
theorem V2_v16 (c : Dev nD) : V2 m ρ c main_v16 = V1 m ρ c main_v16 := W2_of_ne m ρ c main_v16 (by decide)
theorem V2_v24 (c : Dev nD) : V2 m ρ c main_v24 = V1 m ρ c main_v24 := W2_of_ne m ρ c main_v24 (by decide)
theorem V2_arg6 (c : Dev nD) : V2 m ρ c main_arg6 = V1 m ρ c main_arg6 := W2_of_ne m ρ c main_arg6 (by decide)

/-! ## The result -/

/-- The closing slice of the second kernel's output array. -/
theorem W4_v27 (c : Dev nD) : W4 m ρ c (Proc.devRef .tc main_v27)
    = extractStridedSlice S50000x2 ![0, 0]
        (Cert.KernelIdeal.KReg1.outPad (V2 m ρ c main_v25_0) (V2 m ρ c main_v25_1) (V2 m ρ c main_v25_2) (V2 m ρ c main_v21)
          (V2 m ρ c main_v22) (V2 m ρ c main_arg6) (V2 m ρ c main_v23) (V2 m ρ c main_v16) (V2 m ρ c main_v24))
        slices_S50000x128_S50000x2_0_0 := by
  have h9 : W3 m ρ c (Proc.devRef .tc main_v26) = _ := (W3_arr m ρ c 9).trans (Cert.KernelIdeal.KReg1.final (V2 m ρ) c)
  rw [← h9]
  show StableHlo.after hostOps2 (W3 m ρ c) (Proc.devRef .tc main_v27) = _
  after_results <;> rfl

end Cert.KernelIdeal.KValue

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.RefRead.lean ====
/-
  The reference's result read at an index.

  Each definition of the result term is read one operation at a time. A pointwise operation at an index is the scalar
  operation of its operands there; a scalar broadcast reads the scalar; a vector laid as one row and repeated down the
  rows reads, at (r, c), the vector at c; a dense layer at (r, j) is the sum over k of the row's entries against column j
  of the weights; a column sum over the nodes at column j is the initial value, zero, plus the sum over the nodes. The
  constants are read once: the word for the node count is the real 50000, the integer zero converted is the real 0, so the
  variance's divisor is 50000, it is positive, and the selection takes the quotient. What comes out is the specification:
  the hidden array is `hid` of the features plus the neighbourhood sum, its statistics are `meanR` and `varR`, and the
  result is `outF` of them. The neighbourhood sum itself is never opened.
-/
import proofs.«135048_j90443421319566_1_alg».proof.Proof.RefTerm
import proofs.«135048_j90443421319566_1_alg».proof.Proof.Spec
import proofs.«135048_j90443421319566_1_alg».proof.Proof.LibHostReads
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.LibHostReads

/-! ## The constants and the layout reads -/

/-- The word of the node count denotes the real 50000. -/
theorem ofBits_50000 : Ideal.ofBits .f32 0x47435000#32 = ((50000 : ℝ) : EReal) := by
  simp [Ideal.ofBits, Ideal.ieee, -EReal.coe_mul]; norm_num

/-- The two dense layers' dimension records are the plain matrix product's. -/
theorem dot128_plain : dot_S50000x128_S128x128_S50000x128_1_0_0_1_n_n = DotDims.plain 50000 128 128 := rfl
theorem dot2_plain : dot_S50000x128_S128x2_S50000x2_1_0_0_1_n_n = DotDims.plain 50000 128 2 := rfl

variable {α : Type}

/-- A vector of length n laid as one row reads, at (z, c), the vector at c. -/
theorem row_apply {n : Nat} (hn : n ≠ 1) (h1 : (⟨1, ![n]⟩ : Shape).BroadcastsInDim ⟨2, ![1, n]⟩ ![1])
    (b : (⟨1, ![n]⟩ : Shape).Idx → α) (z : Fin 1) (c : Fin n) :
    broadcastInDim ⟨2, ![1, n]⟩ ![1] h1 b (ix2 z c) = b (ix1 c) :=
  broadcastInDim_apply _ h1 b (ix2 z c) (ix1 c) (fun a => match a with
    | ⟨0, _⟩ => by show c.val = if n = 1 then 0 else c.val; rw [if_neg hn])

/-- One row repeated down m rows reads, at (r, c), the row at c. -/
theorem rowBcast_apply {m n : Nat} (hn : n ≠ 1) (h2 : (⟨2, ![1, n]⟩ : Shape).BroadcastsInDim ⟨2, ![m, n]⟩ ![0, 1])
    (Y : (⟨2, ![1, n]⟩ : Shape).Idx → α) (r : Fin m) (c : Fin n) :
    broadcastInDim ⟨2, ![m, n]⟩ ![0, 1] h2 Y (ix2 r c) = Y (ix2 (0 : Fin 1) c) :=
  broadcastInDim_apply _ h2 Y (ix2 r c) (ix2 (0 : Fin 1) c) (fun a => match a with
    | ⟨0, _⟩ => by show 0 = if (1 : Nat) = 1 then 0 else r.val; rw [if_pos rfl]
    | ⟨1, _⟩ => by show c.val = if n = 1 then 0 else c.val; rw [if_neg hn])

/-- Over the reduction of the node axis, the source index above column j with node r on the dropped axis is (r, j). -/
theorem lift_col (h : S50000x128.Reduces [(0 : Fin 2)] S128) (j : Fin 128) (r : Fin 50000) : h.lift (ix1 j) r = ix2 r j :=
  funext fun c => Fin.ext (by match c with | ⟨0, _⟩ => rfl | ⟨1, _⟩ => rfl)

/-! ## The hidden array -/

/-- The hidden array at (r, j): the rectified dense layer of the features plus the neighbourhood sum. -/
theorem hidA_apply (x : FVec Ideal S50000x128 .f32) (e : IVec S2x600000 32) (W1 : FVec Ideal S128x128 .f32) (b1 : FVec Ideal S128 .f32)
    (r : Fin 50000) (j : Fin 128) :
    hidA x e W1 b1 (ix2 r j)
      = Cert.GinSpec.hid (fun r k => x (ix2 r k) + agg x e (ix2 r k)) (fun k j => W1 (ix2 k j)) (fun j => b1 (ix1 j)) r j := by
  unfold hidA
  rw [maximumf_apply, addf_apply, dot_apply _ dot128_plain, rowBias_apply (m := 50000) (n := 128) (by decide), splat_apply,
    constant_apply, Ideal.ofBits_zero_f32]
  simp only [addf_apply]
  rfl

/-! ## The column statistics -/

/-- A column sum over the nodes, from zero, at column j. -/
theorem colSumA_apply (H : FVec Ideal S50000x128 .f32) (j : Fin 128) :
    colSumA H (ix1 j) = ∑ r : Fin 50000, H (ix2 r j) := by
  have h : S50000x128.Reduces [(0 : Fin 2)] S128 := by decide
  unfold colSumA Host.reduceAdd
  refine (Ideal.hostReduceAdd_single reducesTo_S50000x128_S128_d0 h H _ (ix1 j)).trans ?_
  rw [constant_apply, Ideal.ofBits_zero_f32, zero_add]
  exact Finset.sum_congr rfl fun r _ => congrArg H (lift_col h j r)

/-- The column mean at column j. -/
theorem meanA_apply (H : FVec Ideal S50000x128 .f32) (j : Fin 128) :
    meanA H (ix1 j) = Cert.GinSpec.meanR (fun r k => H (ix2 r k)) j := by
  unfold meanA
  show Ideal.div (colSumA H (ix1 j))
    (broadcastInDim S128 ![] bcast_S_S128 (constant (F := Ideal) S_ .f32 0x47435000#32) (ix1 j)) = _
  rw [colSumA_apply, splat_apply, constant_apply, ofBits_50000]
  rfl

/-- The variance's divisor is the node count: the integer zero converts to the real zero. -/
theorem cntA_apply : cntA ix0 = ((50000 : ℝ) : EReal) := by
  unfold cntA
  rw [subf_apply, constant_apply, ofBits_50000, sitofp_apply]
  show ((50000 : ℝ) : EReal) - (((0#32 : BitVec 32).toInt : ℝ) : EReal) = _
  rw [BitVec.toInt_zero, Int.cast_zero, EReal.coe_zero, sub_zero]

/-- A deviation from the column mean at (r, j). -/
theorem devA_apply (H : FVec Ideal S50000x128 .f32) (r : Fin 50000) (j : Fin 128) :
    devA H (ix2 r j) = H (ix2 r j) - Cert.GinSpec.meanR (fun r k => H (ix2 r k)) j := by
  unfold devA
  rw [subf_apply, rowBcast_apply (m := 50000) (n := 128) (by decide)]
  show H (ix2 r j) - Ideal.div (broadcastInDim S1x128 ![1] bcast_S128_S1x128_1 (colSumA H) (ix2 (0 : Fin 1) j))
    (broadcastInDim S1x128 ![] bcast_S_S1x128 (constant (F := Ideal) S_ .f32 0x47435000#32) (ix2 (0 : Fin 1) j)) = _
  rw [row_apply (n := 128) (by decide), colSumA_apply, splat_apply, constant_apply, ofBits_50000]
  rfl

/-- The divisor is positive, so the comparison selects the quotient. -/
theorem cnt_pos : FloatOps.cmpf (F := Ideal) (φ := .f32) .ogt ((50000 : ℝ) : EReal) 0 = 1#1 := by
  show BitVec.ofBool (decide ((0 : EReal) < ((50000 : ℝ) : EReal))) = 1#1
  rw [decide_eq_true (by exact_mod_cast (by norm_num : (0 : ℝ) < 50000))]
  rfl

/-- The column variance at column j. -/
theorem varA_apply (H : FVec Ideal S50000x128 .f32) (j : Fin 128) :
    varA H (ix1 j) = Cert.GinSpec.varR (fun r k => H (ix2 r k)) j := by
  unfold varA
  rw [select_apply, splat_apply, cmpf_apply, cntA_apply, constant_apply, Ideal.ofBits_zero_f32, cnt_pos, select_one]
  show Ideal.div (colSumA (mulf (devA H) (devA H)) (ix1 j)) (broadcastInDim S128 ![] bcast_S_S128 cntA (ix1 j)) = _
  rw [colSumA_apply, splat_apply, cntA_apply]
  simp only [mulf_apply, devA_apply]
  rfl

/-! ## The normalisation and the result -/

/-- The normalised, scaled and shifted array at (r, k). -/
theorem normA_apply (H : FVec Ideal S50000x128 .f32) (g be : FVec Ideal S128 .f32) (r : Fin 50000) (k : Fin 128) :
    normA H g be (ix2 r k)
      = Cert.GinSpec.bn (fun r k => H (ix2 r k)) (fun k => meanA H (ix1 k)) (fun k => varA H (ix1 k))
          (Ideal.ofBits .f32 0x3727C5AC#32) (fun k => g (ix1 k)) (fun k => be (ix1 k)) r k := by
  unfold normA
  rw [addf_apply, mulf_apply, mulf_apply, subf_apply]
  simp only [rowBias_apply (m := 50000) (n := 128) (by decide)]
  show (H (ix2 r k) - meanA H (ix1 k))
      * Ideal.rsqrt (varA H (ix1 k) + broadcastInDim S128 ![] bcast_S_S128 (constant (F := Ideal) S_ .f32 0x3727C5AC#32) (ix1 k))
      * g (ix1 k) + be (ix1 k) = _
  rw [splat_apply, constant_apply]
  rfl

/-- The hidden array of the specification: the rectified dense layer of the features plus the neighbourhood sum. -/
abbrev hidS (x : FVec Ideal S50000x128 .f32) (e : IVec S2x600000 32) (W1 : FVec Ideal S128x128 .f32) (b1 : FVec Ideal S128 .f32) :
    Fin 50000 → Fin 128 → EReal :=
  Cert.GinSpec.hid (fun r k => x (ix2 r k) + agg x e (ix2 r k)) (fun k j => W1 (ix2 k j)) (fun j => b1 (ix1 j))

/-- The reference's result at (r, j) is the specification's classifier over the hidden array, with the mean as the column
    sum over the node count and the variance as the average squared deviation. -/
theorem outArr_apply (x : FVec Ideal S50000x128 .f32) (e : IVec S2x600000 32) (W1 : FVec Ideal S128x128 .f32) (b1 g be : FVec Ideal S128 .f32)
    (W2 : FVec Ideal S128x128 .f32) (b2 : FVec Ideal S128 .f32) (Wl : FVec Ideal S128x2 .f32) (bl : FVec Ideal S2 .f32)
    (r : Fin 50000) (j : Fin 2) :
    outArr x e W1 b1 g be W2 b2 Wl bl (ix2 r j)
      = Cert.GinSpec.outF (hidS x e W1 b1) (Cert.GinSpec.meanR (hidS x e W1 b1)) (Cert.GinSpec.varR (hidS x e W1 b1))
          (Ideal.ofBits .f32 0x3727C5AC#32) (fun k => g (ix1 k)) (fun k => be (ix1 k))
          (fun k j => W2 (ix2 k j)) (fun j => b2 (ix1 j)) (fun k j => Wl (ix2 k j)) (fun j => bl (ix1 j)) r j := by
  have hH : (fun r k => hidA x e W1 b1 (ix2 r k)) = hidS x e W1 b1 :=
    funext fun r => funext fun k => hidA_apply x e W1 b1 r k
  unfold outArr
  rw [addf_apply, dot_apply _ dot2_plain, rowBias_apply (m := 50000) (n := 2) (by decide)]
  simp only [addf_apply, dot_apply _ dot128_plain, rowBias_apply (m := 50000) (n := 128) (by decide), normA_apply, meanA_apply,
    varA_apply, hH]
  rfl

end Cert.ReferenceIdeal.RefValue

end
-- ==== Proof.KEntry.lean ====
/-
  The kernel program's result at an entry, in the vocabulary of the classifier's formula.

  The arrays the second kernel reads are, entry by entry: the hidden array of the features and the neighbour sums, its
  column sums and sums of squares over all 50000 rows, the scale, shift and biases as rows, and the classifier's weights
  and bias in the first two columns of arrays 128 wide. The closing slice keeps columns 0 and 1, where the padded
  arrays hold the classifier's own weights and bias.
-/
import proofs.«135048_j90443421319566_1_alg».proof.Proof.KFinal
import proofs.«135048_j90443421319566_1_alg».proof.Proof.RefRead

noncomputable section

open scoped BigOperators

namespace Cert.KernelIdeal.KValue

open Idealize.ShloMosaic Idealize.ShloMosaic.TcCoe Idealize.ShloMosaic.ValueIdx Idealize.SL.Sem
open Cert.KernelIdeal Cert.KernelIdeal.Gen Cert.GinSpec

variable (m : (ℓ : Loc nD τ sig) → Buf (Elt Ideal) ℓ) (ρ : Dev nD → PrngReg)

/-- The classifier's result in column j' of padded weights and bias that agree with the true ones there. -/
theorem outF_cols {ι : Type} {n n' : Nat} (H : ι → Fin 128 → EReal) (mean var : Fin 128 → EReal) (eps : EReal)
    (γ β : Fin 128 → EReal) (W2 : Fin 128 → Fin 128 → EReal) (b2 : Fin 128 → EReal)
    (Wl : Fin 128 → Fin n → EReal) (bl : Fin n → EReal) (Wl' : Fin 128 → Fin n' → EReal) (bl' : Fin n' → EReal)
    (r : ι) (j : Fin n) (j' : Fin n') (hW : ∀ k, Wl' k j' = Wl k j) (hb : bl' j' = bl j) :
    outF H mean var eps γ β W2 b2 Wl' bl' r j' = outF H mean var eps γ β W2 b2 Wl bl r j := by
  unfold outF lin
  simp only [hW, hb]

/-- The hidden array the first kernel leaves is the hidden array of the features and the neighbour sums. -/
theorem hid_entry (c : Dev nD) (r : Fin 50000) (k : Fin 128) :
    Cert.KernelIdeal.KReg0.hidV (V1 m ρ) c (ix2 r k) = (Cert.ReferenceIdeal.RefValue.hidS (m ((c.tc : Thread nD τ).loc main_arg0)) (m ((c.tc : Thread nD τ).loc main_arg1)) (m ((c.tc : Thread nD τ).loc main_arg2)) (m ((c.tc : Thread nD τ).loc main_arg3))) r k := by
  unfold Cert.KernelIdeal.KReg0.hidV Cert.KernelIdeal.KReg0.hidArr Cert.ReferenceIdeal.RefValue.hidS
  rw [V1_arg0, V1_v13, V1_arg2, V1_v20]
  simp only [shapeCast_a_1a_apply]

/-- The zero scatter index. -/
theorem idx_zero : ((broadcastInDim S1 ![] bcast_S_S1 (constantI S_ 32 0#32) : IVec S1 32) (ix1 0)).toInt = ((0 : Nat) : Int) := rfl

/-- The padded weights hold the classifier's weights in columns 0 and 1. -/
theorem wl_entry (c : Dev nD) (k : Fin 128) (j : Fin 2) (j' : Fin 128) (hj : j'.val = j.val) :
    V1 m ρ c main_v16 (ix2 k j') = (m ((c.tc : Thread nD τ).loc main_arg8)) (ix2 k j) := by
  rw [V1_v16]
  exact Cert.LibWindowSet.scatter_cols_apply scatter_S128x128_S1_S128x2_01_n_1_0_wf _ k j _ _ 0 (idx_zero) (by omega) j' (by omega)

/-- The padded bias row holds the classifier's bias in columns 0 and 1. -/
theorem bl_entry (c : Dev nD) (j : Fin 2) (j' : Fin 128) (hj : j'.val = j.val) :
    V1 m ρ c main_v24 (ix2 0 j') = (m ((c.tc : Thread nD τ).loc main_arg9)) (ix1 j) := by
  rw [V1_v24, shapeCast_a_1a_apply]
  exact Cert.LibWindowSet.scatter_seg_apply scatter_S128_S1_S2_0_n_0_0_wf _ j _ _ 0 (idx_zero) (by omega) j' (by omega)

/-- THE KERNEL PROGRAM'S RESULT at (r, j): the classifier's formula at row r, the statistics spelt as the column sum
    times 1/50000 and the mean of the squares less the squared mean. -/
theorem kernel_entry (c : Dev nD) (r : Fin 50000) (j : Fin 2) :
    W4 m ρ c (Proc.devRef .tc main_v27) (ix2 r j)
      = outF (Cert.ReferenceIdeal.RefValue.hidS (m ((c.tc : Thread nD τ).loc main_arg0)) (m ((c.tc : Thread nD τ).loc main_arg1)) (m ((c.tc : Thread nD τ).loc main_arg2)) (m ((c.tc : Thread nD τ).loc main_arg3))) (meanK (Cert.ReferenceIdeal.RefValue.hidS (m ((c.tc : Thread nD τ).loc main_arg0)) (m ((c.tc : Thread nD τ).loc main_arg1)) (m ((c.tc : Thread nD τ).loc main_arg2)) (m ((c.tc : Thread nD τ).loc main_arg3)))) (varK (Cert.ReferenceIdeal.RefValue.hidS (m ((c.tc : Thread nD τ).loc main_arg0)) (m ((c.tc : Thread nD τ).loc main_arg1)) (m ((c.tc : Thread nD τ).loc main_arg2)) (m ((c.tc : Thread nD τ).loc main_arg3)))) (Ideal.ofBits .f32 0x3727C5AC#32)
          (fun k => (m ((c.tc : Thread nD τ).loc main_arg4)) (ix1 k)) (fun k => (m ((c.tc : Thread nD τ).loc main_arg5)) (ix1 k)) (fun k k2 => (m ((c.tc : Thread nD τ).loc main_arg6)) (ix2 k k2)) (fun k => (m ((c.tc : Thread nD τ).loc main_arg7)) (ix1 k))
          (fun k j => (m ((c.tc : Thread nD τ).loc main_arg8)) (ix2 k j)) (fun j => (m ((c.tc : Thread nD τ).loc main_arg9)) (ix1 j)) r j := by
  have hj : j.val < 128 := by have := j.isLt; omega
  rw [W4_v27, slice2_apply 0 0 _ _ r j r ⟨j.val, hj⟩ (by omega) (by dsimp only; omega)]
  unfold Cert.KernelIdeal.KReg1.outPad
  rw [V2_v25_0, V2_v25_1, V2_v25_2, V2_v21, V2_v22, V2_arg6, V2_v23, V2_v16, V2_v24, V1_v21, V1_v22, V1_arg6, V1_v23]
  have hsum : ∀ k : Fin 128, Cert.KernelIdeal.KReg0.sumArr (Cert.KernelIdeal.KReg0.hidV (V1 m ρ) c) (ix2 0 k) = colSum (Cert.ReferenceIdeal.RefValue.hidS (m ((c.tc : Thread nD τ).loc main_arg0)) (m ((c.tc : Thread nD τ).loc main_arg1)) (m ((c.tc : Thread nD τ).loc main_arg2)) (m ((c.tc : Thread nD τ).loc main_arg3))) k :=
    fun k => (Cert.KernelIdeal.KReg0.sumArr_apply _ k).trans (Finset.sum_congr rfl fun r _ => hid_entry m ρ c r k)
  have hsq : ∀ k : Fin 128, Cert.KernelIdeal.KReg0.sqArr (Cert.KernelIdeal.KReg0.hidV (V1 m ρ) c) (ix2 0 k) = colSq (Cert.ReferenceIdeal.RefValue.hidS (m ((c.tc : Thread nD τ).loc main_arg0)) (m ((c.tc : Thread nD τ).loc main_arg1)) (m ((c.tc : Thread nD τ).loc main_arg2)) (m ((c.tc : Thread nD τ).loc main_arg3))) k :=
    fun k => (Cert.KernelIdeal.KReg0.sqArr_apply _ k).trans (Finset.sum_congr rfl fun r _ => by rw [hid_entry m ρ c r k])
  simp only [hid_entry m ρ c, hsum, hsq, shapeCast_a_1a_apply]
  exact outF_cols _ _ _ _ _ _ _ _ _ _ _ _ r j ⟨j.val, hj⟩ (fun k => wl_entry m ρ c k j ⟨j.val, hj⟩ rfl) (bl_entry m ρ c j ⟨j.val, hj⟩ rfl)

end Cert.KernelIdeal.KValue

end
-- ==== Proof.BnLaw.lean ====
/-
  The two spellings of a column's mean and variance agree on real numbers.

  For real entries h₁ … h_N of a column (N = 50000) write S = Σ h, Q = Σ h², μ = S / N. Dividing by N is multiplying by
  1/N, so the two means are one number on every extended real. For the variances, Σ (h − μ)² = Q − 2 μ S + N μ², and
  S = N μ, so Σ (h − μ)² / N = Q / N − μ². This uses subtraction and distributivity, which hold among real numbers but
  not at the infinities, so the entries are asked to be real.
-/
import proofs.«135048_j90443421319566_1_alg».proof.Proof.Spec

noncomputable section

open scoped BigOperators

namespace Cert.GinSpec

open Idealize.ShloMosaic

/-- The image of a finite sum of reals is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing the column sum by 50000 is multiplying it by 1/50000. -/
theorem meanK_eq_meanR (H : Fin 50000 → Fin 128 → EReal) (j : Fin 128) : meanK H j = meanR H j := by
  unfold meanK meanR
  rw [Ideal.div_coe (by norm_num : (50000 : ℝ) ≠ 0)]

/-- The real identity behind the two variances. -/
theorem var_real (h : Fin 50000 → ℝ) :
    (∑ r, h r * h r) * (1 / 50000) - (∑ r, h r) * (1 / 50000) * ((∑ r, h r) * (1 / 50000))
      = (∑ r, (h r - (∑ r, h r) * (1 / 50000)) * (h r - (∑ r, h r) * (1 / 50000))) * (1 / 50000) := by
  have e : ∀ r, (h r - (∑ r, h r) * (1 / 50000)) * (h r - (∑ r, h r) * (1 / 50000))
      = h r * h r - 2 * ((∑ r, h r) * (1 / 50000)) * h r + (∑ r, h r) * (1 / 50000) * ((∑ r, h r) * (1 / 50000)) :=
    fun r => by ring
  simp only [e, Finset.sum_add_distrib, Finset.sum_sub_distrib, ← Finset.mul_sum, Finset.sum_const, Finset.card_univ,
    Fintype.card_fin, nsmul_eq_mul]
  push_cast
  ring

/-- On a column of reals the mean of the squares less the square of the mean is the average squared deviation. -/
theorem varK_eq_varR (H : Fin 50000 → Fin 128 → EReal) (hH : ∀ r j, ∃ v : ℝ, H r j = (v : EReal)) (j : Fin 128) :
    varK H j = varR H j := by
  choose h hh using fun r => hH r j
  have hS : colSum H j = ((∑ r, h r : ℝ) : EReal) := by
    unfold colSum; rw [coe_sum]; exact Finset.sum_congr rfl fun r _ => hh r
  have hQ : colSq H j = ((∑ r, h r * h r : ℝ) : EReal) := by
    unfold colSq; rw [coe_sum]
    exact Finset.sum_congr rfl fun r _ => by rw [hh r, EReal.coe_mul]
  have hμ : meanR H j = (((∑ r, h r) * (1 / 50000) : ℝ) : EReal) := by
    rw [← meanK_eq_meanR]; unfold meanK; rw [hS, ← EReal.coe_mul]
  unfold varK varR
  rw [Ideal.div_coe (by norm_num : (50000 : ℝ) ≠ 0)]
  have hD : (∑ r : Fin 50000, (H r j - meanR H j) * (H r j - meanR H j))
      = ((∑ r, (h r - (∑ r, h r) * (1 / 50000)) * (h r - (∑ r, h r) * (1 / 50000)) : ℝ) : EReal) := by
    rw [coe_sum]
    exact Finset.sum_congr rfl fun r _ => by rw [hh r, hμ, ← EReal.coe_sub, ← EReal.coe_mul]
  rw [hD, hQ]
  unfold meanK
  rw [hS, ← EReal.coe_mul, ← EReal.coe_mul, ← EReal.coe_mul, ← EReal.coe_sub, ← EReal.coe_mul, var_real]

/-- So the classifier's result is the same under either spelling of the statistics, on a real hidden array. -/
theorem outF_stats {n : Nat} (H : Fin 50000 → Fin 128 → EReal) (hH : ∀ r j, ∃ v : ℝ, H r j = (v : EReal)) (eps : EReal)
    (γ β : Fin 128 → EReal) (W2 : Fin 128 → Fin 128 → EReal) (b2 : Fin 128 → EReal) (Wl : Fin 128 → Fin n → EReal)
    (bl : Fin n → EReal) (r : Fin 50000) (j : Fin n) :
    outF H (meanK H) (varK H) eps γ β W2 b2 Wl bl r j = outF H (meanR H) (varR H) eps γ β W2 b2 Wl bl r j := by
  rw [show meanK H = meanR H from funext (meanK_eq_meanR H), show varK H = varR H from funext (varK_eq_varR H hH)]

end Cert.GinSpec

end
-- ==== Proof.RefOps.lean ====
/-
  The reference program's @main as one straight line of host operations.

  @main calls three module-local functions: the rectifier (three operations), the column variance (nineteen operations
  and a call of the selection helper, three more). A call means its callee's body run on the operands, so each call is
  replaced by the callee's operations over that call's own buffers; with @main's own fifty-two this gives a list of
  seventy-seven operations, and @main is the sequence of that list. Every operation touches TensorCore buffers only and
  the signature scopes nothing, so the run of a straight line applies: every weakly fair execution terminates and each
  buffer ends at the fold of the operations over the launch contents.
-/
import proofs.«135048_j90443421319566_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the three calls replaced by their callees' operations: the edge list split into
    sources and destinations, negative sources wrapped, the gather and the scatter-add (17); the sum with the features,
    the first dense layer and its bias (5); the rectifier (3); the column mean (6, the last an integer zero handed to the
    variance); the variance (19) with its selection against the count (3); the normalisation, scale and shift (16); the two
    further dense layers with their biases (8). -/
abbrev ops : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_arg0 main_v13 main_v14 (addf : (⟨S50000x128, .f32⟩ : BufTy).Contents (Elt F) → (⟨S50000x128, .f32⟩ : BufTy).Contents (Elt F) → (⟨S50000x128, .f32⟩ : BufTy).Contents (Elt F)),
    binary main_v14 main_arg2 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v16 (broadcastInDim S1x128 ![1] bcast_S128_S1x128_1 : (⟨S128, .f32⟩ : BufTy).Contents (Elt F) → (⟨S1x128, .f32⟩ : BufTy).Contents (Elt F)),
    unary main_v16 main_v17 (broadcastInDim S50000x128 ![0, 1] bcast_S1x128_S50000x128_0_1 : (⟨S1x128, .f32⟩ : BufTy).Contents (Elt F) → (⟨S50000x128, .f32⟩ : BufTy).Contents (Elt F)),
    binary main_v15 main_v17 main_v18 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (TRef.of (T := ⟨S50000x128, .f32⟩) main_v18) main_call0.v0 main_call0.v1 maximumf,
    nullary main_cst_1 (constant S_ .f32 0x00000000#32),
    binary main_v19 main_cst_1 main_v20 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_2 (constant S_ .f32 0x47435000#32),
    unary main_cst_2 main_v21 (broadcastInDim S128 ![] bcast_S_S128 : (⟨S_, .f32⟩ : BufTy).Contents (Elt F) → (⟨S128, .f32⟩ : BufTy).Contents (Elt F)),
    binary main_v20 main_v21 main_v22 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary main_call1.cst (constant S_ .f32 0x00000000#32),
    TRef.binary (TRef.of (T := ⟨S50000x128, .f32⟩) main_v19) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (TRef.of (T := ⟨S50000x128, .f32⟩) main_v19) main_call1.v4 main_call1.v5 subf,
    TRef.binary main_call1.v5 main_call1.v5 main_call1.v6 mulf,
    TRef.unary (TRef.of (T := ⟨S_, .i32⟩) main_c_3) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v22 main_v24 (broadcastInDim S1x128 ![1] bcast_S128_S1x128_1 : (⟨S128, .f32⟩ : BufTy).Contents (Elt F) → (⟨S1x128, .f32⟩ : BufTy).Contents (Elt F)),
    unary main_v24 main_v25 (broadcastInDim S50000x128 ![0, 1] bcast_S1x128_S50000x128_0_1 : (⟨S1x128, .f32⟩ : BufTy).Contents (Elt F) → (⟨S50000x128, .f32⟩ : BufTy).Contents (Elt F)),
    binary main_v19 main_v25 main_v26 (subf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x3727C5AC#32),
    unary main_cst_4 main_v27 (broadcastInDim S128 ![] bcast_S_S128 : (⟨S_, .f32⟩ : BufTy).Contents (Elt F) → (⟨S128, .f32⟩ : BufTy).Contents (Elt F)),
    binary main_v23 main_v27 main_v28 (addf : (⟨S128, .f32⟩ : BufTy).Contents (Elt F) → (⟨S128, .f32⟩ : BufTy).Contents (Elt F) → (⟨S128, .f32⟩ : BufTy).Contents (Elt F)),
    unary main_v28 main_v29 (Host.rsqrt : (⟨S128, .f32⟩ : BufTy).Contents (Elt F) → (⟨S128, .f32⟩ : BufTy).Contents (Elt F)),
    unary main_v29 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v26 main_v31 main_v32 (mulf : (⟨S50000x128, .f32⟩ : BufTy).Contents (Elt F) → (⟨S50000x128, .f32⟩ : BufTy).Contents (Elt F) → (⟨S50000x128, .f32⟩ : BufTy).Contents (Elt F)),
    unary main_arg4 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v32 main_v34 main_v35 (mulf : (⟨S50000x128, .f32⟩ : BufTy).Contents (Elt F) → (⟨S50000x128, .f32⟩ : BufTy).Contents (Elt F) → (⟨S50000x128, .f32⟩ : BufTy).Contents (Elt F)),
    unary main_arg5 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_v35 main_v37 main_v38 (addf : (⟨S50000x128, .f32⟩ : BufTy).Contents (Elt F) → (⟨S50000x128, .f32⟩ : BufTy).Contents (Elt F) → (⟨S50000x128, .f32⟩ : BufTy).Contents (Elt F)),
    binary main_v38 main_arg6 main_v39 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v40 (broadcastInDim S1x128 ![1] bcast_S128_S1x128_1 : (⟨S128, .f32⟩ : BufTy).Contents (Elt F) → (⟨S1x128, .f32⟩ : BufTy).Contents (Elt F)),
    unary main_v40 main_v41 (broadcastInDim S50000x128 ![0, 1] bcast_S1x128_S50000x128_0_1 : (⟨S1x128, .f32⟩ : BufTy).Contents (Elt F) → (⟨S50000x128, .f32⟩ : BufTy).Contents (Elt F)),
    binary main_v39 main_v41 main_v42 (addf : (⟨S50000x128, .f32⟩ : BufTy).Contents (Elt F) → (⟨S50000x128, .f32⟩ : BufTy).Contents (Elt F) → (⟨S50000x128, .f32⟩ : BufTy).Contents (Elt F)),
    binary main_v42 main_arg8 main_v43 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    unary main_arg9 main_v44 (broadcastInDim S1x2 ![1] bcast_S2_S1x2_1 : (⟨S2, .f32⟩ : BufTy).Contents (Elt F) → (⟨S1x2, .f32⟩ : BufTy).Contents (Elt F)),
    unary main_v44 main_v45 (broadcastInDim S50000x2 ![0, 1] bcast_S1x2_S50000x2_0_1 : (⟨S1x2, .f32⟩ : BufTy).Contents (Elt F) → (⟨S50000x2, .f32⟩ : BufTy).Contents (Elt F)),
    binary main_v43 main_v45 main_v46 (addf : (⟨S50000x2, .f32⟩ : BufTy).Contents (Elt F) → (⟨S50000x2, .f32⟩ : BufTy).Contents (Elt F) → (⟨S50000x2, .f32⟩ : BufTy).Contents (Elt F)) ]

-- seventy-seven binds re-associated: the rewriting under the chain recurses once per statement
set_option maxRecDepth 4096 in
set_option maxHeartbeats 2000000 in
/-- @main is that straight line: the functions' bodies unfolded at their calls, both sides are one chain of steps once
    sequencing is re-associated. -/
theorem main_eq (c : Dev nD) : main (F := F) c = seq ops := by
  simp only [main, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    binary_bufs_sub .., binary_bufs_sub .., unary_bufs_sub .., unary_bufs_sub .., binary_bufs_sub ..⟩

/-- From any memory with zero counters every weakly fair execution of @main terminates, and every buffer ends at the
    fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefRun.lean ====
/-
  The reference's run: its result is `outArr` of the argument arrays, and the arguments are unchanged.

  The fold of the seventy-seven operations at the result buffer is read one operation at a time: an operation's result at
  its own buffer is its function of its operands' contents, at any other buffer what was there. What is left is the
  composition `outArr` states, the same operations in the same order, so the two agree by unfolding the definitions;
  the gather, the scatter-add, the column sums and the dense layers stay folded throughout, nothing looks inside them.
  No operation writes an argument buffer, so each argument ends as it began.
-/
import proofs.«135048_j90443421319566_1_alg».proof.Proof.RefOps
import proofs.«135048_j90443421319566_1_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local irreducible] Host.reduceAdd Host.gather Host.scatterAdd in
set_option maxRecDepth 16384 in
set_option maxHeartbeats 8000000 in
/-- The fold at the result buffer is `outArr` of the contents of the ten argument buffers. -/
theorem out_eq (V : Valuation τ sig (Elt Ideal)) :
    after (ops (F := Ideal)) V (main_v46 : DevRef τ sig)
      = outArr (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  rfl

set_option maxRecDepth 8192 in
set_option maxHeartbeats 2000000 in
theorem arg0_eq (V : Valuation τ sig (Elt Ideal)) :
    after (ops (F := Ideal)) V (main_arg0 : DevRef τ sig) = V (main_arg0 : DevRef τ sig) := by
  after_results_simp

set_option maxRecDepth 8192 in
set_option maxHeartbeats 2000000 in
theorem arg1_eq (V : Valuation τ sig (Elt Ideal)) :
    after (ops (F := Ideal)) V (main_arg1 : DevRef τ sig) = V (main_arg1 : DevRef τ sig) := by
  after_results_simp

set_option maxRecDepth 8192 in
set_option maxHeartbeats 2000000 in
theorem arg2_eq (V : Valuation τ sig (Elt Ideal)) :
    after (ops (F := Ideal)) V (main_arg2 : DevRef τ sig) = V (main_arg2 : DevRef τ sig) := by
  after_results_simp

set_option maxRecDepth 8192 in
set_option maxHeartbeats 2000000 in
theorem arg3_eq (V : Valuation τ sig (Elt Ideal)) :
    after (ops (F := Ideal)) V (main_arg3 : DevRef τ sig) = V (main_arg3 : DevRef τ sig) := by
  after_results_simp

set_option maxRecDepth 8192 in
set_option maxHeartbeats 2000000 in
theorem arg4_eq (V : Valuation τ sig (Elt Ideal)) :
    after (ops (F := Ideal)) V (main_arg4 : DevRef τ sig) = V (main_arg4 : DevRef τ sig) := by
  after_results_simp

set_option maxRecDepth 8192 in
set_option maxHeartbeats 2000000 in
theorem arg5_eq (V : Valuation τ sig (Elt Ideal)) :
    after (ops (F := Ideal)) V (main_arg5 : DevRef τ sig) = V (main_arg5 : DevRef τ sig) := by
  after_results_simp

set_option maxRecDepth 8192 in
set_option maxHeartbeats 2000000 in
theorem arg6_eq (V : Valuation τ sig (Elt Ideal)) :
    after (ops (F := Ideal)) V (main_arg6 : DevRef τ sig) = V (main_arg6 : DevRef τ sig) := by
  after_results_simp

set_option maxRecDepth 8192 in
set_option maxHeartbeats 2000000 in
theorem arg7_eq (V : Valuation τ sig (Elt Ideal)) :
    after (ops (F := Ideal)) V (main_arg7 : DevRef τ sig) = V (main_arg7 : DevRef τ sig) := by
  after_results_simp

set_option maxRecDepth 8192 in
set_option maxHeartbeats 2000000 in
theorem arg8_eq (V : Valuation τ sig (Elt Ideal)) :
    after (ops (F := Ideal)) V (main_arg8 : DevRef τ sig) = V (main_arg8 : DevRef τ sig) := by
  after_results_simp

set_option maxRecDepth 8192 in
set_option maxHeartbeats 2000000 in
theorem arg9_eq (V : Valuation τ sig (Elt Ideal)) :
    after (ops (F := Ideal)) V (main_arg9 : DevRef τ sig) = V (main_arg9 : DevRef τ sig) := by
  after_results_simp

/-- From any memory with zero counters every weakly fair execution of the reference terminates with its result at
    `outArr` of the ten argument arrays and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v46) = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v46).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_after (F := Ideal) m ρ)

end Cert.ReferenceIdeal.RefValue

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.LibRealHost.lean ====
/-
  More host operations on arrays of extended reals: the ones that keep every entry a real number, and the ones that make
  every entry a POSITIVE real number.

  A softmax row and a Gaussian overlap are built from exponentials, logarithms of positive numbers, sums along an axis, a
  maximum along an axis, and quotients by a sum of exponentials.  Each keeps the entries real: the exponential of a real
  is a positive real; the logarithm of a positive real is real; a sum along an axis of reals (from a real initial value) is
  real, and of positive reals from zero over a non-empty axis is positive; the maximum along a non-empty axis of reals, taken
  from minus infinity, is one of them; a finite float literal is a dyadic rational; a gather copies entries of its operand;
  a change of float format is the identity.  None of these facts reads an array at a particular index.
-/
import proofs.«135048_j90443421319566_1_alg».proof.Proof.LibRealClosed
import Idealize.ShloMosaic.PureOps.Reduce
import Idealize.ShloMosaic.PureOps.Ideal.Laws

noncomputable section

open scoped BigOperators

namespace Cert.LibRealHost

open Idealize.ShloMosaic Cert.LibRealClosed

/-- An extended real that is a positive real number. -/
def IsPos (x : EReal) : Prop := ∃ r : ℝ, 0 < r ∧ x = (r : EReal)

theorem IsPos.isReal {x : EReal} (h : IsPos x) : IsReal x := by
  obtain ⟨r, _, e⟩ := h; exact ⟨r, e⟩

theorem IsPos.ne_zero {x : EReal} (h : IsPos x) : x ≠ 0 := by
  obtain ⟨r, hr, rfl⟩ := h
  intro e
  exact (ne_of_gt hr) (EReal.coe_eq_zero.mp e)

/-- A real number above zero, as extended reals compare, is a positive real. -/
theorem isPos_of_isReal_of_pos {x : EReal} (h : IsReal x) (hp : 0 < x) : IsPos x := by
  obtain ⟨r, rfl⟩ := h
  exact ⟨r, EReal.coe_pos.mp hp, rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

/-- A sum of positive reals over a non-empty finite set is a positive real. -/
theorem IsPos.sum {ι : Type*} (s : Finset ι) (hs : s.Nonempty) (f : ι → EReal) (h : ∀ i ∈ s, IsPos (f i)) :
    IsPos (∑ i ∈ s, f i) := by
  classical
  induction hs using Finset.Nonempty.cons_induction with
  | singleton a => rw [Finset.sum_singleton]; exact h a (Finset.mem_singleton_self a)
  | cons a s ha _ ih =>
    rw [Finset.sum_cons]
    exact (h a (Finset.mem_cons_self a s)).add (ih fun i hi => h i (Finset.mem_cons.mpr (Or.inr hi)))

/-- The larger of two reals is real. -/
theorem isReal_max {x y : EReal} (hx : IsReal x) (hy : IsReal y) : IsReal (max x y) := by
  rcases le_total x y with h | h
  · rw [max_eq_right h]; exact hy
  · rw [max_eq_left h]; exact hx

/-- The exponential of a real is a positive real. -/
theorem IsPos.exp {x : EReal} (hx : IsReal x) : IsPos (Ideal.exp x) := by
  obtain ⟨r, rfl⟩ := hx
  exact ⟨Real.exp r, Real.exp_pos r, rfl⟩

/-- The logarithm of a positive real is real. -/
theorem isReal_log {x : EReal} (hx : IsPos x) : IsReal (Ideal.log x) := by
  obtain ⟨r, hr, rfl⟩ := hx
  rw [Ideal.log_coe, if_neg (not_le.mpr hr)]
  exact ⟨_, rfl⟩

/-- A maximum from minus infinity over a finite set of reals is minus infinity on the empty set and real otherwise. -/
theorem fold_max_bot {ι : Type*} (s : Finset ι) (f : ι → EReal) (h : ∀ i ∈ s, IsReal (f i)) :
    (s = ∅ ∧ s.fold max ⊥ f = ⊥) ∨ IsReal (s.fold max ⊥ f) := by
  classical
  induction s using Finset.induction_on with
  | empty => exact Or.inl ⟨rfl, Finset.fold_empty⟩
  | insert a s ha ih =>
    right
    rw [Finset.fold_insert ha]
    rcases ih (fun i hi => h i (Finset.mem_insert_of_mem hi)) with ⟨_, e⟩ | hr
    · rw [e, max_eq_left bot_le]; exact h a (Finset.mem_insert_self a s)
    · exact isReal_max (h a (Finset.mem_insert_self a s)) hr

/-- A float32 pattern whose exponent field is not all ones denotes a real number (a dyadic rational). -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  simp only []
  rw [if_neg h]
  split_ifs <;> exact ⟨_, rfl⟩

/-- Every entry of the array is a positive real number. -/
def AllPos {S : Shape} {φ : FTy} (v : FVec Ideal S φ) : Prop := ∀ i, IsPos (v i)

variable {s t : Shape} {φ : FTy}

theorem AllPos.allReal {x : FVec Ideal s φ} (h : AllPos x) : AllReal x := fun i => (h i).isReal

/-- An array of reals each above zero is an array of positive reals. -/
theorem AllPos.of_pos {x : FVec Ideal s φ} (h : AllReal x) (hp : ∀ i, (0 : EReal) < x i) : AllPos x :=
  fun i => isPos_of_isReal_of_pos (h i) (hp i)

theorem AllPos.hostExp {x : FVec Ideal s φ} (hx : AllReal x) : AllPos (Host.exp x) := fun i => IsPos.exp (hx i)

theorem AllReal.hostLog {x : FVec Ideal s φ} (hx : AllPos x) : AllReal (Host.log x) := fun i => isReal_log (hx i)

theorem AllReal.maximumf {x y : FVec Ideal s φ} (hx : AllReal x) (hy : AllReal y) : AllReal (maximumf x y) :=
  fun i => isReal_max (hx i) (hy i)

/-- A change to a narrower float format is the identity on the extended reals. -/
theorem AllReal.truncf {ψ : FTy} {x : FVec Ideal s φ} (h : ψ.bits < φ.bits) (hx : AllReal x) :
    AllReal (φ := ψ) (truncf ψ x h) := fun i => hx i

/-- A gathered entry is an entry of the operand, whatever the indices. -/
theorem AllReal.gather {si : Shape} {w : Nat} (d : GatherDims s si t) {x : FVec Ideal s φ} (idx : IVec si w)
    (hx : AllReal x) : AllReal (φ := φ) (Host.gather d x idx) := fun _ => hx _

/-- A finite float32 literal splatted over a shape. -/
theorem AllReal.constant_f32 (b : BitVec 32) (h : (b.extractLsb' 23 8).toNat ≠ 2 ^ 8 - 1) :
    AllReal (constant (F := Ideal) s .f32 b) := fun _ => isReal_ofBits_f32 b h

/-- The host's sum along any axes of an array of reals, from a real initial value, is an array of reals. -/
theorem AllReal.hostReduceAdd {axes : List (Fin s.rank)} {u : Shape} {x : FVec Ideal s φ} {init : u.Idx → Ideal φ}
    (h : s.ReducesTo axes t) (hu : 0 < u.numel) (hx : AllReal x) (hi : ∀ i, IsReal (init i)) :
    AllReal (Host.reduceAdd x init h hu) := by
  intro j
  show IsReal (Ideal.hostReduceAdd h x (init (Shape.Idx.first hu)) j)
  unfold Ideal.hostReduceAdd
  exact (hi _).add (IsReal.sum _ _ fun i _ => hx i)

/-- The host's sum along ONE non-empty axis of an array of positive reals, from zero, is an array of positive reals. -/
theorem AllPos.hostReduceAdd_single {a : Fin s.rank} {u : Shape} {x : FVec Ideal s φ} {init : u.Idx → Ideal φ}
    (h' : s.ReducesTo [a] t) (h : s.Reduces [a] t) (hu : 0 < u.numel) (hn : 0 < s.size a) (hx : AllPos x)
    (hi : ∀ i, init i = 0) : AllPos (Host.reduceAdd x init h' hu) := by
  intro j
  show IsPos (Ideal.hostReduceAdd h' x (init (Shape.Idx.first hu)) j)
  rw [Ideal.hostReduceAdd_single h' h, hi, zero_add]
  haveI : Nonempty (Fin (s.size a)) := ⟨⟨0, hn⟩⟩
  exact IsPos.sum _ Finset.univ_nonempty _ fun k _ => hx _

/-- The host's maximum along ONE non-empty axis of an array of reals, taken from minus infinity, is an array of reals. -/
theorem AllReal.hostReduceMax_single {a : Fin s.rank} {u : Shape} {x : FVec Ideal s φ} {init : u.Idx → Ideal φ}
    (h' : s.ReducesTo [a] t) (h : s.Reduces [a] t) (hu : 0 < u.numel) (hn : 0 < s.size a) (hx : AllReal x)
    (hi : ∀ i, init i = ⊥) : AllReal (Host.reduce FloatOps.maximumf x init h' hu) := by
  intro j
  rw [Host.reduce_eq_fold_single FloatOps.maximumf x init h' h hu j, hi]
  haveI : Nonempty (Fin (s.size a)) := ⟨⟨0, hn⟩⟩
  rcases fold_max_bot (Finset.univ : Finset (Fin (s.size a))) (x ∘ h.lift j) (fun k _ => hx _) with ⟨e, _⟩ | hr
  · exact absurd e Finset.univ_nonempty.ne_empty
  · exact hr

end Cert.LibRealHost

end
-- ==== Proof.LibRealScatter.lean ====
/-
  The host's accumulating scatter keeps an array real.

  On the extended reals the accumulating scatter is exact: an entry of its result is the operand's entry there plus the
  sum of the update entries whose scattered position is that entry, an update that lands outside the operand adding
  nothing. So whatever the indices are, an entry of the result is a real number plus a finite sum of real numbers, hence
  real, as soon as every entry of the operand and of the updates is real. Generic in the shapes, the dimension numbers,
  the index width and the float format; no array is read at a particular index.
-/
import proofs.«135048_j90443421319566_1_alg».proof.Proof.LibRealClosed

noncomputable section

open scoped BigOperators

namespace Cert.LibRealScatter

open Idealize.ShloMosaic Cert.LibRealClosed

/-- An accumulating scatter of real updates into a real operand is real at every entry, whatever the indices. -/
theorem allReal_scatterAdd {s si su : Shape} {φ : FTy} {w : Nat} (d : ScatterDims s si su) {x : FVec Ideal s φ}
    (idx : IVec si w) {upd : FVec Ideal su φ} (hx : AllReal x) (hu : AllReal upd) :
    AllReal (Host.scatterAdd d x idx upd) := by
  intro i
  show IsReal (Ideal.hostScatterAdd d x idx upd i)
  unfold Ideal.hostScatterAdd
  exact (hx i).add (IsReal.sum _ _ fun j _ => hu j)

end Cert.LibRealScatter

end
-- ==== Proof.RefReal.lean ====
/-
  Under the precondition every number the hidden array is made of is real.

  The law that joins the two spellings of the column variance holds for real numbers only, so the entries of the hidden
  array must be shown real. The precondition says that the absolute value of every entry of each float argument is below
  plus infinity; an extended real whose absolute value is below plus infinity is a real number, so the features, the
  first layer's weights and its bias are real. The neighbourhood sum is real: a gathered entry is an entry of the
  features, and an accumulated entry is zero plus a finite sum of gathered entries, whatever the edge list holds. An entry
  of the hidden array is then the larger of zero and a finite sum of products of reals plus a real, which is real.
-/
import proofs.«135048_j90443421319566_1_alg».proof.Proof.RefRead
import proofs.«135048_j90443421319566_1_alg».proof.Pre_finite_inputs
import proofs.«135048_j90443421319566_1_alg».proof.Proof.LibRealHost
import proofs.«135048_j90443421319566_1_alg».proof.Proof.LibRealScatter
import Idealize.ShloMosaic.Lib.ReduceAll

noncomputable section

open scoped BigOperators

namespace Cert.ReferenceIdeal.RefValue

open Cert.ReferenceIdeal Cert.ReferenceIdeal.Gen Idealize.ShloMosaic Idealize.ShloMosaic.ValueIdx
open Cert.LibRealClosed Cert.LibRealHost Cert.LibRealScatter

/-! ## The neighbourhood sum and the hidden array -/

/-- The neighbourhood sum of real features is real at every entry, whatever the edge list. -/
theorem agg_real (x : FVec Ideal S50000x128 .f32) (e : IVec S2x600000 32) (hx : ∀ i, IsReal (x i)) :
    ∀ i, IsReal (agg x e i) := by
  unfold agg
  exact allReal_scatterAdd _ _
    (AllReal.broadcastInDim _ _ (AllReal.constant_f32 0x00000000#32 (by decide)))
    (AllReal.gather _ _ hx)

/-- Every entry of the hidden array is real when the features, the weights and the bias are. -/
theorem hidS_real (x : FVec Ideal S50000x128 .f32) (e : IVec S2x600000 32) (W1 : FVec Ideal S128x128 .f32) (b1 : FVec Ideal S128 .f32)
    (hx : ∀ i, IsReal (x i)) (hW : ∀ i, IsReal (W1 i)) (hb : ∀ i, IsReal (b1 i)) :
    ∀ (r : Fin 50000) (j : Fin 128), IsReal (hidS x e W1 b1 r j) := by
  intro r j
  show IsReal (max (∑ k : Fin 128, (x (ix2 r k) + agg x e (ix2 r k)) * W1 (ix2 k j) + b1 (ix1 j)) 0)
  exact isReal_max
    ((IsReal.sum _ _ fun k _ => ((hx _).add (agg_real x e hx _)).mul (hW _)).add (hb _)) IsReal.zero

/-! ## The precondition read back -/

/-- The word of plus infinity denotes plus infinity. -/
theorem ofBits_inf : Ideal.ofBits .f32 0x7F800000#32 = ⊤ := by
  simp [Ideal.ofBits, Ideal.ieee]

/-- An array passes the test "every absolute value is below plus infinity" only if every entry is real. -/
theorem real_of_all_lt_inf {S : Shape} {axes : List (Fin S.rank)} (x : FVec Ideal S .f32)
    (hb : (⟨0, ![]⟩ : Shape).BroadcastsInDim S ![]) (hr : S.ReducesTo axes ⟨0, ![]⟩) (hu : 0 < (⟨0, ![]⟩ : Shape).numel)
    (h : Host.reduce IntOp.andi
          (cmpf .olt (Host.absf x) (broadcastInDim S ![] hb (constant (F := Ideal) ⟨0, ![]⟩ .f32 0x7F800000#32)))
          (constantI ⟨0, ![]⟩ 1 1#1) hr hu ix0 = 1#1) :
    ∀ i, IsReal (x i) := by
  haveI : Subsingleton (⟨0, ![]⟩ : Shape).Idx := ⟨fun a b => funext fun d => d.elim0⟩
  intro i
  have e := Host.reduce_andi_all _ _ hr hu ix0 h i
  have e' : Ideal.cmp .olt (max (x i) (-(x i))) (Ideal.ofBits .f32 0x7F800000#32) = 1#1 := e
  rw [ofBits_inf] at e'
  refine isReal_of_abs_lt_top ?_
  by_contra hn
  have h0 : Ideal.cmp .olt (max (x i) (-(x i))) ⊤ = 0#1 := by
    unfold Ideal.cmp
    simp [hn]
  rw [h0] at e'
  exact absurd e' (by decide)

/-- Under the precondition the features, the first layer's weights and its bias are real at every entry. -/
theorem pre_real [Cert.Pre_finite_inputs.Facts] (x : FVec Ideal S50000x128 .f32) (e : IVec S2x600000 32) (W1 : FVec Ideal S128x128 .f32)
    (b1 g be : FVec Ideal S128 .f32) (W2 : FVec Ideal S128x128 .f32) (b2 : FVec Ideal S128 .f32) (Wl : FVec Ideal S128x2 .f32)
    (bl : FVec Ideal S2 .f32)
    (h : Cert.Pre_finite_inputs.fn (F := Ideal) x e W1 b1 g be W2 b2 Wl bl = fun _ => 1#1) :
    (∀ i, IsReal (x i)) ∧ (∀ i, IsReal (W1 i)) ∧ (∀ i, IsReal (b1 i)) := by
  have h0 := congrFun h ix0
  dsimp only [Cert.Pre_finite_inputs.fn, Cert.Pre_finite_inputs.fn_part1, Cert.Pre_finite_inputs.fn_part2] at h0
  have h38 := (IntOp.andi_eq_one.1 h0).1
  have h33 := (IntOp.andi_eq_one.1 h38).1
  have h28 := (IntOp.andi_eq_one.1 h33).1
  have h23 := (IntOp.andi_eq_one.1 h28).1
  have h18 := (IntOp.andi_eq_one.1 h23).1
  have h13 := (IntOp.andi_eq_one.1 h18).1
  obtain ⟨h8, h12⟩ := IntOp.andi_eq_one.1 h13
  obtain ⟨h3, h7⟩ := IntOp.andi_eq_one.1 h8
  exact ⟨real_of_all_lt_inf x _ _ _ h3, real_of_all_lt_inf W1 _ _ _ h7, real_of_all_lt_inf b1 _ _ _ h12⟩

end Cert.ReferenceIdeal.RefValue

end
-- ==== Proof.lean ====
/-
  The graph-isomorphism classifier: a two-kernel program against its plain reference, on the extended reals.

  Both programs add to every node's features the sum of its in-neighbours' features by the same host gather and
  scatter-add, apply a dense layer and a rectifier, normalise each of the 128 columns by its mean and variance over
  the 50000 nodes, scale and shift, and apply two more dense layers, the last one onto two classes.

  The kernel program tiles the nodes into five blocks of 10000 rows. Its first kernel writes the hidden array block by
  block and accumulates, across the five grid points, the column sums of the hidden array and of its square; its second
  kernel takes the mean as the sum times the named constant 1/50000 and the variance as the mean of the squares less the
  square of the mean, normalises its block of rows, and applies the two dense layers against a weight matrix and a bias
  padded with zeros to 128 columns; a closing slice keeps the two true columns. The reference divides the column sum by
  50000 and averages the squared deviations from that mean.

  Block by block and entry by entry the two programs compute the same sums of the same products: a matrix product of a
  block of rows is the block of rows of the product, a sum over five blocks of 10000 rows is the sum over 50000 rows,
  and the padded columns are never read. What remains is the variance: the mean of the squares less the squared mean
  equals the average squared deviation on real numbers, not at the infinities. Under the precondition the features and
  the first layer's weights and bias are real, so the neighbour sums and the hidden array are real, and the law applies.
  The one rewrite of the idealisation names the kernel's constant 2.0e-5 as the rational 1/50000.
-/
import proofs.«135048_j90443421319566_1_alg».proof.Defs
import proofs.«135048_j90443421319566_1_alg».proof.Proof.Gen.Kernel
import proofs.«135048_j90443421319566_1_alg».proof.Proof.Gen.Kernel.Skeleton
import proofs.«135048_j90443421319566_1_alg».proof.Proof.Gen.Kernel.Launch
import proofs.«135048_j90443421319566_1_alg».proof.Proof.Gen.Kernel.Points
import proofs.«135048_j90443421319566_1_alg».proof.Proof.Gen.Kernel.Frame
import proofs.«135048_j90443421319566_1_alg».proof.Proof.Gen.KernelIdeal
import proofs.«135048_j90443421319566_1_alg».proof.Proof.Gen.KernelIdeal.Skeleton
import proofs.«135048_j90443421319566_1_alg».proof.Proof.Gen.KernelIdeal.Launch
import proofs.«135048_j90443421319566_1_alg».proof.Proof.Gen.KernelIdeal.Points
import proofs.«135048_j90443421319566_1_alg».proof.Proof.Gen.KernelIdeal.Frame
import proofs.«135048_j90443421319566_1_alg».proof.Proof.Gen.ReferenceIdeal
import proofs.«135048_j90443421319566_1_alg».proof.Proof.Gen.Pre_finite_inputs
import proofs.«135048_j90443421319566_1_alg».proof.Proof.KRun
import proofs.«135048_j90443421319566_1_alg».proof.Proof.KEntry
import proofs.«135048_j90443421319566_1_alg».proof.Proof.BnLaw
import proofs.«135048_j90443421319566_1_alg».proof.Proof.RefRun
import proofs.«135048_j90443421319566_1_alg».proof.Proof.RefRead
import proofs.«135048_j90443421319566_1_alg».proof.Proof.RefReal
import Idealize.ShloMosaic.Adequacy
import Idealize.ShloMosaic.Init

noncomputable section

namespace Cert.Proof

open Idealize.ShloMosaic Idealize.ShloMosaic.ValueIdx Idealize.SL.Sem

/-- The word-level kernel program runs and leaves its arguments as launched. -/
theorem frame_p : Cert.frame_Kernel := fun m ρ _ => Cert.Kernel.Gen.frame m ρ

/-- So does its idealisation. -/
theorem frame_pi : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.RefValue.run m ρ)

/-- The two places where the idealisation names the constant 2.0e-5 as the rational 1/50000. -/
theorem preserves : Cert.preserves_Kernel_KernelIdeal :=
  ⟨IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl⟩

/-- On the extended reals the two programs end with the same array: entry (r, j) of either is the classifier's formula
    at row r of the same hidden array, the kernel's with the statistics as sum times 1/50000 and mean of squares less
    squared mean, the reference's as quotient by 50000 and average squared deviation; the hidden array is real under
    the precondition, where the two spellings agree. -/
theorem algebraic : Cert.algebraic_KernelIdeal_ReferenceIdeal := by
  intro m ρ m' ρ' hpre hagree
  refine ⟨fun c => Cert.KernelIdeal.Gen.W4 m ρ c (Proc.devRef .tc Cert.KernelIdeal.main_v27),
    Cert.KernelIdeal.KValue.run_named (F := Ideal) m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9⟩ := hagree c
  rw [a0, a1, a2, a3, a4, a5, a6, a7, a8, a9]
  obtain ⟨hx, hW, hb⟩ := Cert.ReferenceIdeal.RefValue.pre_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (hpre c)
  have hH := Cert.ReferenceIdeal.RefValue.hidS_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) hx hW hb
  funext i
  obtain ⟨r, j, rfl⟩ : ∃ (r : Fin 50000) (j : Fin 2), i = ix2 r j := ⟨i 0, i 1, eq_ix2 i⟩
  rw [Cert.ReferenceIdeal.RefValue.outArr_apply]
  refine Eq.trans ?_ (Cert.KernelIdeal.KValue.kernel_entry m ρ c r j).symm
  exact (Cert.GinSpec.outF_stats _ hH _ _ _ _ _ _ _ r j).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
